-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S8x1024x2048 : Shape := ⟨3, ![8, 1024, 2048]⟩
abbrev S8x2048 : Shape := ⟨2, ![8, 2048]⟩
abbrev S8x2048x256 : Shape := ⟨3, ![8, 2048, 256]⟩
abbrev S8x256 : Shape := ⟨2, ![8, 256]⟩
abbrev S1024x2048 : Shape := ⟨2, ![1024, 2048]⟩
abbrev S2048 : Shape := ⟨1, ![2048]⟩
abbrev S2048x256 : Shape := ⟨2, ![2048, 256]⟩
abbrev S256 : Shape := ⟨1, ![256]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8x2048x256 : S_.BroadcastsInDim S8x2048x256 (![] : Fin 0 → Fin S8x2048x256.rank)
  reducesTo_S8x2048x256_S_d0_1_2 : S8x2048x256.ReducesTo [0, 1, 2] S_
  bcast_S_S8x256 : S_.BroadcastsInDim S8x256 (![] : Fin 0 → Fin S8x256.rank)
  reducesTo_S8x256_S_d0_1 : S8x256.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S2048x256 .f32) (main_arg9 : FVec F S256 .f32) (main_v33 : IVec S_ 1) : IVec S_ 1 :=
  let main_v34 : FVec F S2048x256 .f32 := Host.absf main_arg8
  let main_cst_12 : FVec F S_ .f32 := constant S_ .f32 0x7F800000#32
  let main_v35 : FVec F S2048x256 .f32 := broadcastInDim S2048x256 ![] bcast_S_S2048x256 main_cst_12
  let main_v36 : IVec S2048x256 1 := cmpf .olt main_v34 main_v35
  let main_c_13 : IVec S_ 1 := constantI S_ 1 1#1
  let main_v37 : IVec S_ 1 := (fun x v => Host.reduce IntOp.andi x v reducesTo_S2048x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S8x256 .f32) (main_arg6 : FVec F S1024x2048 .f32) (main_arg7 : FVec F S2048 .f32) (main_arg8 : FVec F S2048x256 .f32) (main_arg9 : FVec F S256 .f32) (main_v13 : IVec S_ 1) (main_v16 : IVec S8x2048x256 1) : IVec S_ 1 :=
  let main_c_5 : IVec S_ 1 := constantI S_ 1 1#1
  let main_v17 : IVec S_ 1 := (fun x v => Host.reduce IntOp.andi x v reducesTo_S8x2048x256_S_d0_1_2 h_S_) main_v16 main_c_5
  let main_v18 : IVec S_ 1 := andi main_v13 main_v17
  let main_v19 : FVec F S8x256 .f32 := Host.absf main_arg5
  let main_cst_6 : FVec F S_ .f32 := constant S_ .f32 0x7F800000#32
  let main_v20 : FVec F S8x256 .f32 := broadcastInDim S8x256 ![] bcast_S_S8x256 main_cst_6
  let main_v21 : IVec S8x256 1 := cmpf .olt main_v19 main_v20
  let main_c_7 : IVec S_ 1 := constantI S_ 1 1#1
  let main_v22 : IVec S_ 1 := (fun x v => Host.reduce IntOp.andi x v reducesTo_S8x256_S_d0_1 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg8 main_arg9 main_v33

def fn {F : FTy → Type} [FloatOps F] (main_arg0 : FVec F S16384x1024 .f32) (main_arg1 : IVec S16384 32) (main_arg2 : FVec F S8x1024x2048 .f32) (main_arg3 : FVec F S8x2048 .f32) (main_arg4 : FVec F S8x2048x256 .f32) (main_arg5 : FVec F S8x256 .f32) (main_arg6 : FVec F S1024x2048 .f32) (main_arg7 : FVec F S2048 .f32) (main_arg8 : FVec F S2048x256 .f32) (main_arg9 : FVec F S256 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8x1024x2048 .f32 := Host.absf main_arg2
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  let main_v9 : FVec F S8x2048 .f32 := Host.absf main_arg3
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  let main_v14 : FVec F S8x2048x256 .f32 := Host.absf main_arg4
  let main_cst_4 : FVec F S_ .f32 := constant S_ .f32 0x7F800000#32
  let main_v15 : FVec F S8x2048x256 .f32 := broadcastInDim S8x2048x256 ![] bcast_S_S8x2048x256 main_cst_4
  let main_v16 : IVec S8x2048x256 1 := cmpf .olt main_v14 main_v15
  fn_part1 (F := F) main_arg5 main_arg6 main_arg7 main_arg8 main_arg9 main_v13 main_v16
-- ==== Kernel.lean ====
abbrev S16384x1024 : Shape := ⟨2, ![16384, 1024]⟩
abbrev S16384 : Shape := ⟨1, ![16384]⟩
abbrev S8x1024x2048 : Shape := ⟨3, ![8, 1024, 2048]⟩
abbrev S8x2048 : Shape := ⟨2, ![8, 2048]⟩
abbrev S8x2048x256 : Shape := ⟨3, ![8, 2048, 256]⟩
abbrev S8x256 : Shape := ⟨2, ![8, 256]⟩
abbrev S1024x2048 : Shape := ⟨2, ![1024, 2048]⟩
abbrev S2048 : Shape := ⟨1, ![2048]⟩
abbrev S2048x256 : Shape := ⟨2, ![2048, 256]⟩
abbrev S256 : Shape := ⟨1, ![256]⟩
abbrev S16384x1 : Shape := ⟨2, ![16384, 1]⟩
abbrev S8x1x2048 : Shape := ⟨3, ![8, 1, 2048]⟩
abbrev S8x1x256 : Shape := ⟨3, ![8, 1, 256]⟩
abbrev S16384x256 : Shape := ⟨2, ![16384, 256]⟩
abbrev S1024x1024 : Shape := ⟨2, ![1024, 1024]⟩
abbrev S1024x256 : Shape := ⟨2, ![1024, 256]⟩
abbrev S1x2048 : Shape := ⟨2, ![1, 2048]⟩
abbrev S1x256 : Shape := ⟨2, ![1, 256]⟩
abbrev S1024x1 : Shape := ⟨2, ![1024, 1]⟩
abbrev S1x1024x2048 : Shape := ⟨3, ![1, 1024, 2048]⟩
abbrev S1x1x2048 : Shape := ⟨3, ![1, 1, 2048]⟩
abbrev S1x2048x256 : Shape := ⟨3, ![1, 2048, 256]⟩
abbrev S1x1x256 : Shape := ⟨3, ![1, 1, 256]⟩

abbrev nBuf : Space → Nat
  | .hbm => 20
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S8x1024x2048, .f32⟩
  | .hbm, ⟨3, _⟩ => ⟨S8x2048, .f32⟩
  | .hbm, ⟨4, _⟩ => ⟨S8x2048x256, .f32⟩
  | .hbm, ⟨5, _⟩ => ⟨S8x256, .f32⟩
  | .hbm, ⟨6, _⟩ => ⟨S1024x2048, .f32⟩
  | .hbm, ⟨7, _⟩ => ⟨S2048, .f32⟩
  | .hbm, ⟨8, _⟩ => ⟨S2048x256, .f32⟩
  | .hbm, ⟨9, _⟩ => ⟨S256, .f32⟩
  | .hbm, ⟨10, _⟩ => ⟨S16384x1024, .bf16⟩
  | .hbm, ⟨11, _⟩ => ⟨S8x1024x2048, .bf16⟩
  | .hbm, ⟨12, _⟩ => ⟨S8x2048x256, .bf16⟩
  | .hbm, ⟨13, _⟩ => ⟨S1024x2048, .bf16⟩
  | .hbm, ⟨14, _⟩ => ⟨S2048x256, .bf16⟩
  | .hbm, ⟨15, _⟩ => ⟨S16384x1, .i32⟩
  | .hbm, ⟨16, _⟩ => ⟨S8x1x2048, .f32⟩
  | .hbm, ⟨17, _⟩ => ⟨S8x1x256, .f32⟩
  | .hbm, ⟨18, _⟩ => ⟨S16384x256, .f32⟩
  | .hbm, ⟨19, _⟩ => ⟨S16384x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S2048, .f32⟩
  | .local _ .vmem, ⟨4, _⟩ => ⟨S2048x256, .bf16⟩
  | .local _ .vmem, ⟨5, _⟩ => ⟨S256, .f32⟩
  | .local _ .vmem, ⟨6, _⟩ => ⟨S1024x256, .f32⟩
  | .local _ .vmem, ⟨7, _⟩ => ⟨S1024x256, .f32⟩
  | .local _ .vmem, ⟨8, _⟩ => ⟨S1024x1024, .bf16⟩
  | .local _ .vmem, ⟨9, _⟩ => ⟨S1024x1024, .bf16⟩
  | .local _ .vmem, ⟨10, _⟩ => ⟨S1024x1, .i32⟩
  | .local _ .vmem, ⟨11, _⟩ => ⟨S1024x1, .i32⟩
  | .local _ .vmem, ⟨12, _⟩ => ⟨S1x1024x2048, .bf16⟩
  | .local _ .vmem, ⟨13, _⟩ => ⟨S1x1024x2048, .bf16⟩
  | .local _ .vmem, ⟨14, _⟩ => ⟨S1x1x2048, .f32⟩
  | .local _ .vmem, ⟨15, _⟩ => ⟨S1x1x2048, .f32⟩
  | .local _ .vmem, ⟨16, _⟩ => ⟨S1x2048x256, .bf16⟩
  | .local _ .vmem, ⟨17, _⟩ => ⟨S1x2048x256, .bf16⟩
  | .local _ .vmem, ⟨18, _⟩ => ⟨S1x1x256, .f32⟩
  | .local _ .vmem, ⟨19, _⟩ => ⟨S1x1x256, .f32⟩
  | .local _ .vmem, ⟨20, _⟩ => ⟨S1024x256, .f32⟩
  | .local _ .vmem, ⟨21, _⟩ => ⟨S1024x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bitsLt_bf16_f32 : FTy.bits .bf16 < FTy.bits .f32
  shapeCasts_S16384_S16384x1 : S16384.ShapeCasts S16384x1
  shapeCasts_S8x2048_S8x1x2048 : S8x2048.ShapeCasts S8x1x2048
  shapeCasts_S8x256_S8x1x256 : S8x256.ShapeCasts S8x1x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  natLt_1_32 : 1 < 32
  shapeCasts_S1024x256_S1024x256 : S1024x256.ShapeCasts S1024x256
  broadcasts_S1024x1_S1024x256 : S1024x1.Broadcasts S1024x256
  dot_S1024x1024_S1024x2048_S1024x2048_1_0_0_1_n_n_wf : DotDims.WF S1024x1024 S1024x2048 S1024x2048 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x256.size a
  hwx0_3 : ∀ i : grid0.Coords, EltTy.bits .bf16 = 32 ∨ (Rect.block (s := S2048x256) S2048x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S16384x256.size a
  hwx0_5 : ∀ i : grid0.Coords, EltTy.bits .f32 = 32 ∨ (Rect.block (s := S16384x256) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .bf16 = 32 ∨ (Rect.block (s := S16384x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S16384x1.size a
  hwx1_1 : ∀ i : grid1.Coords, EltTy.bits .i32 = 32 ∨ (Rect.block (s := S16384x1) S1024x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x2048.size a ≤ S8x1024x2048.size a
  hwx1_2 : ∀ i : grid1.Coords, EltTy.bits .bf16 = 32 ∨ (Rect.block (s := S8x1024x2048) S1x1024x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S8x1x2048.size a
  hwx1_3 : ∀ i : grid1.Coords, EltTy.bits .f32 = 32 ∨ (Rect.block (s := S8x1x2048) S1x1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x256.size a ≤ S8x2048x256.size a
  hwx1_4 : ∀ i : grid1.Coords, EltTy.bits .bf16 = 32 ∨ (Rect.block (s := S8x2048x256) S1x2048x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x256.size a ≤ S8x1x256.size a
  hwx1_5 : ∀ i : grid1.Coords, EltTy.bits .f32 = 32 ∨ (Rect.block (s := S8x1x256) S1x1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S16384x256.size a
  hwx1_6 : ∀ i : grid1.Coords, EltTy.bits .f32 = 32 ∨ (Rect.block (s := S16384x256) S1024x256.size (cc1_transform_6 i) (hinb1_6 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x2048x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S16384 : Shape := ⟨1, ![16384]⟩
abbrev S8x1024x2048 : Shape := ⟨3, ![8, 1024, 2048]⟩
abbrev S8x2048 : Shape := ⟨2, ![8, 2048]⟩
abbrev S8x2048x256 : Shape := ⟨3, ![8, 2048, 256]⟩
abbrev S8x256 : Shape := ⟨2, ![8, 256]⟩
abbrev S1024x2048 : Shape := ⟨2, ![1024, 2048]⟩
abbrev S2048 : Shape := ⟨1, ![2048]⟩
abbrev S2048x256 : Shape := ⟨2, ![2048, 256]⟩
abbrev S256 : Shape := ⟨1, ![256]⟩
abbrev S16384x2048 : Shape := ⟨2, ![16384, 2048]⟩
abbrev S1x2048 : Shape := ⟨2, ![1, 2048]⟩
abbrev S_ : Shape := ⟨0, ![]⟩
abbrev S16384x256 : Shape := ⟨2, ![16384, 256]⟩
abbrev S1x256 : Shape := ⟨2, ![1, 256]⟩
abbrev S1x1024x2048 : Shape := ⟨3, ![1, 1024, 2048]⟩
abbrev S1x2048x256 : Shape := ⟨3, ![1, 2048, 256]⟩
abbrev S16384x1 : Shape := ⟨2, ![16384, 1]⟩

abbrev nBuf : Space → Nat
  | .hbm => 223
  | .vmem => 0
  | .smem => 0
  | _ => 0

abbrev hbmTy0_0 (i : Nat) : BufTy := match i % 128 with
  | 0 => ⟨S16384x1024, .f32⟩
  | 1 => ⟨S16384, .i32⟩
  | 2 => ⟨S8x1024x2048, .f32⟩
  | 3 => ⟨S8x2048, .f32⟩
  | 4 => ⟨S8x2048x256, .f32⟩
  | 5 => ⟨S8x256, .f32⟩
  | 6 => ⟨S1024x2048, .f32⟩
  | 7 => ⟨S2048, .f32⟩
  | 8 => ⟨S2048x256, .f32⟩
  | 9 => ⟨S256, .f32⟩
  | 10 => ⟨S16384x2048, .f32⟩
  | 11 => ⟨S1x2048, .f32⟩
  | 12 => ⟨S16384x2048, .f32⟩
  | 13 => ⟨S16384x2048, .f32⟩
  | 14 => ⟨S_, .f32⟩
  | 15 => ⟨S16384x2048, .f32⟩
  | 16 => ⟨S16384x2048, .f32⟩
  | 17 => ⟨S16384x256, .f32⟩
  | 18 => ⟨S1x256, .f32⟩
  | 19 => ⟨S16384x256, .f32⟩
  | 20 => ⟨S16384x256, .f32⟩
  | 21 => ⟨S_, .f32⟩
  | 22 => ⟨S16384x256, .f32⟩
  | 23 => ⟨S1x1024x2048, .f32⟩
  | 24 => ⟨S1024x2048, .f32⟩
  | 25 => ⟨S16384x2048, .f32⟩
  | 26 => ⟨S1x2048, .f32⟩
  | 27 => ⟨S2048, .f32⟩
  | 28 => ⟨S1x2048, .f32⟩
  | 29 => ⟨S16384x2048, .f32⟩
  | 30 => ⟨S16384x2048, .f32⟩
  | 31 => ⟨S_, .f32⟩
  | 32 => ⟨S16384x2048, .f32⟩
  | 33 => ⟨S16384x2048, .f32⟩
  | 34 => ⟨S1x2048x256, .f32⟩
  | 35 => ⟨S2048x256, .f32⟩
  | 36 => ⟨S16384x256, .f32⟩
  | 37 => ⟨S1x256, .f32⟩
  | 38 => ⟨S256, .f32⟩
  | 39 => ⟨S1x256, .f32⟩
  | 40 => ⟨S16384x256, .f32⟩
  | 41 => ⟨S16384x256, .f32⟩
  | 42 => ⟨S_, .i32⟩
  | 43 => ⟨S16384, .i32⟩
  | 44 => ⟨S16384, .i1⟩
  | 45 => ⟨S16384x1, .i1⟩
  | 46 => ⟨S16384x256, .i1⟩
  | 47 => ⟨S16384x256, .f32⟩
  | 48 => ⟨S1x1024x2048, .f32⟩
  | 49 => ⟨S1024x2048, .f32⟩
  | 50 => ⟨S16384x2048, .f32⟩
  | 51 => ⟨S1x2048, .f32⟩
  | 52 => ⟨S2048, .f32⟩
  | 53 => ⟨S1x2048, .f32⟩
  | 54 => ⟨S16384x2048, .f32⟩
  | 55 => ⟨S16384x2048, .f32⟩
  | 56 => ⟨S_, .f32⟩
  | 57 => ⟨S16384x2048, .f32⟩
  | 58 => ⟨S16384x2048, .f32⟩
  | 59 => ⟨S1x2048x256, .f32⟩
  | 60 => ⟨S2048x256, .f32⟩
  | 61 => ⟨S16384x256, .f32⟩
  | 62 => ⟨S1x256, .f32⟩
  | 63 => ⟨S256, .f32⟩
  | 64 => ⟨S1x256, .f32⟩
  | 65 => ⟨S16384x256, .f32⟩
  | 66 => ⟨S16384x256, .f32⟩
  | 67 => ⟨S_, .i32⟩
  | 68 => ⟨S16384, .i32⟩
  | 69 => ⟨S16384, .i1⟩
  | 70 => ⟨S16384x1, .i1⟩
  | 71 => ⟨S16384x256, .i1⟩
  | 72 => ⟨S16384x256, .f32⟩
  | 73 => ⟨S1x1024x2048, .f32⟩
  | 74 => ⟨S1024x2048, .f32⟩
  | 75 => ⟨S16384x2048, .f32⟩
  | 76 => ⟨S1x2048, .f32⟩
  | 77 => ⟨S2048, .f32⟩
  | 78 => ⟨S1x2048, .f32⟩
  | 79 => ⟨S16384x2048, .f32⟩
  | 80 => ⟨S16384x2048, .f32⟩
  | 81 => ⟨S_, .f32⟩
  | 82 => ⟨S16384x2048, .f32⟩
  | 83 => ⟨S16384x2048, .f32⟩
  | 84 => ⟨S1x2048x256, .f32⟩
  | 85 => ⟨S2048x256, .f32⟩
  | 86 => ⟨S16384x256, .f32⟩
  | 87 => ⟨S1x256, .f32⟩
  | 88 => ⟨S256, .f32⟩
  | 89 => ⟨S1x256, .f32⟩
  | 90 => ⟨S16384x256, .f32⟩
  | 91 => ⟨S16384x256, .f32⟩
  | 92 => ⟨S_, .i32⟩
  | 93 => ⟨S16384, .i32⟩
  | 94 => ⟨S16384, .i1⟩
  | 95 => ⟨S16384x1, .i1⟩
  | 96 => ⟨S16384x256, .i1⟩
  | 97 => ⟨S16384x256, .f32⟩
  | 98 => ⟨S1x1024x2048, .f32⟩
  | 99 => ⟨S1024x2048, .f32⟩
  | 100 => ⟨S16384x2048, .f32⟩
  | 101 => ⟨S1x2048, .f32⟩
  | 102 => ⟨S2048, .f32⟩
  | 103 => ⟨S1x2048, .f32⟩
  | 104 => ⟨S16384x2048, .f32⟩
  | 105 => ⟨S16384x2048, .f32⟩
  | 106 => ⟨S_, .f32⟩
  | 107 => ⟨S16384x2048, .f32⟩
  | 108 => ⟨S16384x2048, .f32⟩
  | 109 => ⟨S1x2048x256, .f32⟩
  | 110 => ⟨S2048x256, .f32⟩
  | 111 => ⟨S16384x256, .f32⟩
  | 112 => ⟨S1x256, .f32⟩
  | 113 => ⟨S256, .f32⟩
  | 114 => ⟨S1x256, .f32⟩
  | 115 => ⟨S16384x256, .f32⟩
  | 116 => ⟨S16384x256, .f32⟩
  | 117 => ⟨S_, .i32⟩
  | 118 => ⟨S16384, .i32⟩
  | 119 => ⟨S16384, .i1⟩
  | 120 => ⟨S16384x1, .i1⟩
  | 121 => ⟨S16384x256, .i1⟩
  | 122 => ⟨S16384x256, .f32⟩
  | 123 => ⟨S1x1024x2048, .f32⟩
  | 124 => ⟨S1024x2048, .f32⟩
  | 125 => ⟨S16384x2048, .f32⟩
  | 126 => ⟨S1x2048, .f32⟩
  | 127 => ⟨S2048, .f32⟩
  | _ => ⟨S16384x1024, .f32⟩

abbrev hbmTy0_1 (i : Nat) : BufTy := match i % 128 with
  | 0 => ⟨S1x2048, .f32⟩
  | 1 => ⟨S16384x2048, .f32⟩
  | 2 => ⟨S16384x2048, .f32⟩
  | 3 => ⟨S_, .f32⟩
  | 4 => ⟨S16384x2048, .f32⟩
  | 5 => ⟨S16384x2048, .f32⟩
  | 6 => ⟨S1x2048x256, .f32⟩
  | 7 => ⟨S2048x256, .f32⟩
  | 8 => ⟨S16384x256, .f32⟩
  | 9 => ⟨S1x256, .f32⟩
  | 10 => ⟨S256, .f32⟩
  | 11 => ⟨S1x256, .f32⟩
  | 12 => ⟨S16384x256, .f32⟩
  | 13 => ⟨S16384x256, .f32⟩
  | 14 => ⟨S_, .i32⟩
  | 15 => ⟨S16384, .i32⟩
  | 16 => ⟨S16384, .i1⟩
  | 17 => ⟨S16384x1, .i1⟩
  | 18 => ⟨S16384x256, .i1⟩
  | 19 => ⟨S16384x256, .f32⟩
  | 20 => ⟨S1x1024x2048, .f32⟩
  | 21 => ⟨S1024x2048, .f32⟩
  | 22 => ⟨S16384x2048, .f32⟩
  | 23 => ⟨S1x2048, .f32⟩
  | 24 => ⟨S2048, .f32⟩
  | 25 => ⟨S1x2048, .f32⟩
  | 26 => ⟨S16384x2048, .f32⟩
  | 27 => ⟨S16384x2048, .f32⟩
  | 28 => ⟨S_, .f32⟩
  | 29 => ⟨S16384x2048, .f32⟩
  | 30 => ⟨S16384x2048, .f32⟩
  | 31 => ⟨S1x2048x256, .f32⟩
  | 32 => ⟨S2048x256, .f32⟩
  | 33 => ⟨S16384x256, .f32⟩
  | 34 => ⟨S1x256, .f32⟩
  | 35 => ⟨S256, .f32⟩
  | 36 => ⟨S1x256, .f32⟩
  | 37 => ⟨S16384x256, .f32⟩
  | 38 => ⟨S16384x256, .f32⟩
  | 39 => ⟨S_, .i32⟩
  | 40 => ⟨S16384, .i32⟩
  | 41 => ⟨S16384, .i1⟩
  | 42 => ⟨S16384x1, .i1⟩
  | 43 => ⟨S16384x256, .i1⟩
  | 44 => ⟨S16384x256, .f32⟩
  | 45 => ⟨S1x1024x2048, .f32⟩
  | 46 => ⟨S1024x2048, .f32⟩
  | 47 => ⟨S16384x2048, .f32⟩
  | 48 => ⟨S1x2048, .f32⟩
  | 49 => ⟨S2048, .f32⟩
  | 50 => ⟨S1x2048, .f32⟩
  | 51 => ⟨S16384x2048, .f32⟩
  | 52 => ⟨S16384x2048, .f32⟩
  | 53 => ⟨S_, .f32⟩
  | 54 => ⟨S16384x2048, .f32⟩
  | 55 => ⟨S16384x2048, .f32⟩
  | 56 => ⟨S1x2048x256, .f32⟩
  | 57 => ⟨S2048x256, .f32⟩
  | 58 => ⟨S16384x256, .f32⟩
  | 59 => ⟨S1x256, .f32⟩
  | 60 => ⟨S256, .f32⟩
  | 61 => ⟨S1x256, .f32⟩
  | 62 => ⟨S16384x256, .f32⟩
  | 63 => ⟨S16384x256, .f32⟩
  | 64 => ⟨S_, .i32⟩
  | 65 => ⟨S16384, .i32⟩
  | 66 => ⟨S16384, .i1⟩
  | 67 => ⟨S16384x1, .i1⟩
  | 68 => ⟨S16384x256, .i1⟩
  | 69 => ⟨S16384x256, .f32⟩
  | 70 => ⟨S1x1024x2048, .f32⟩
  | 71 => ⟨S1024x2048, .f32⟩
  | 72 => ⟨S16384x2048, .f32⟩
  | 73 => ⟨S1x2048, .f32⟩
  | 74 => ⟨S2048, .f32⟩
  | 75 => ⟨S1x2048, .f32⟩
  | 76 => ⟨S16384x2048, .f32⟩
  | 77 => ⟨S16384x2048, .f32⟩
  | 78 => ⟨S_, .f32⟩
  | 79 => ⟨S16384x2048, .f32⟩
  | 80 => ⟨S16384x2048, .f32⟩
  | 81 => ⟨S1x2048x256, .f32⟩
  | 82 => ⟨S2048x256, .f32⟩
  | 83 => ⟨S16384x256, .f32⟩
  | 84 => ⟨S1x256, .f32⟩
  | 85 => ⟨S256, .f32⟩
  | 86 => ⟨S1x256, .f32⟩
  | 87 => ⟨S16384x256, .f32⟩
  | 88 => ⟨S16384x256, .f32⟩
  | 89 => ⟨S_, .i32⟩
  | 90 => ⟨S16384, .i32⟩
  | 91 => ⟨S16384, .i1⟩
  | 92 => ⟨S16384x1, .i1⟩
  | 93 => ⟨S16384x256, .i1⟩
  | 94 => ⟨S16384x256, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_cst : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call2_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call3_cst : Ref sig .tc := ⟨.hbm, 56, rfl⟩
abbrev main_call3_v0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call4_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call5_cst : Ref sig .tc := ⟨.hbm, 81, rfl⟩
abbrev main_call5_v0 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_1 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call6_v0 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call7_cst : Ref sig .tc := ⟨.hbm, 106, rfl⟩
abbrev main_call7_v0 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_2 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call8_v0 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_call9_cst : Ref sig .tc := ⟨.hbm, 131, rfl⟩
abbrev main_call9_v0 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_c_3 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_call10_v0 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_call11_cst : Ref sig .tc := ⟨.hbm, 156, rfl⟩
abbrev main_call11_v0 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_c_4 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_call12_v0 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_call13_cst : Ref sig .tc := ⟨.hbm, 181, rfl⟩
abbrev main_call13_v0 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_c_5 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_call14_v0 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_call15_cst : Ref sig .tc := ⟨.hbm, 206, rfl⟩
abbrev main_call15_v0 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_c_6 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_call16_v0 : Ref sig .tc := ⟨.hbm, 221, rfl⟩
abbrev main_v177 : Ref sig .tc := ⟨.hbm, 222, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  slices_S8x1024x2048_S1x1024x2048_0_0_0 : S8x1024x2048.Slices ![0, 0, 0] S1x1024x2048
  shapeCasts_S1x1024x2048_S1024x2048 : S1x1024x2048.ShapeCasts S1024x2048
  slices_S8x2048_S1x2048_0_0 : S8x2048.Slices ![0, 0] S1x2048
  shapeCasts_S1x2048_S2048 : S1x2048.ShapeCasts S2048
  slices_S8x2048x256_S1x2048x256_0_0_0 : S8x2048x256.Slices ![0, 0, 0] S1x2048x256
  shapeCasts_S1x2048x256_S2048x256 : S1x2048x256.ShapeCasts S2048x256
  slices_S8x256_S1x256_0_0 : S8x256.Slices ![0, 0] S1x256
  shapeCasts_S1x256_S256 : S1x256.ShapeCasts S256
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  slices_S8x1024x2048_S1x1024x2048_1_0_0 : S8x1024x2048.Slices ![1, 0, 0] S1x1024x2048
  slices_S8x2048_S1x2048_1_0 : S8x2048.Slices ![1, 0] S1x2048
  slices_S8x2048x256_S1x2048x256_1_0_0 : S8x2048x256.Slices ![1, 0, 0] S1x2048x256
  slices_S8x256_S1x256_1_0 : S8x256.Slices ![1, 0] S1x256
  slices_S8x1024x2048_S1x1024x2048_2_0_0 : S8x1024x2048.Slices ![2, 0, 0] S1x1024x2048
  slices_S8x2048_S1x2048_2_0 : S8x2048.Slices ![2, 0] S1x2048
  slices_S8x2048x256_S1x2048x256_2_0_0 : S8x2048x256.Slices ![2, 0, 0] S1x2048x256
  slices_S8x256_S1x256_2_0 : S8x256.Slices ![2, 0] S1x256
  slices_S8x1024x2048_S1x1024x2048_3_0_0 : S8x1024x2048.Slices ![3, 0, 0] S1x1024x2048
  slices_S8x2048_S1x2048_3_0 : S8x2048.Slices ![3, 0] S1x2048
  slices_S8x2048x256_S1x2048x256_3_0_0 : S8x2048x256.Slices ![3, 0, 0] S1x2048x256
  slices_S8x256_S1x256_3_0 : S8x256.Slices ![3, 0] S1x256
  slices_S8x1024x2048_S1x1024x2048_4_0_0 : S8x1024x2048.Slices ![4, 0, 0] S1x1024x2048
  slices_S8x2048_S1x2048_4_0 : S8x2048.Slices ![4, 0] S1x2048
  slices_S8x2048x256_S1x2048x256_4_0_0 : S8x2048x256.Slices ![4, 0, 0] S1x2048x256
  slices_S8x256_S1x256_4_0 : S8x256.Slices ![4, 0] S1x256
  slices_S8x1024x2048_S1x1024x2048_5_0_0 : S8x1024x2048.Slices ![5, 0, 0] S1x1024x2048
  slices_S8x2048_S1x2048_5_0 : S8x2048.Slices ![5, 0] S1x2048
  slices_S8x2048x256_S1x2048x256_5_0_0 : S8x2048x256.Slices ![5, 0, 0] S1x2048x256
  slices_S8x256_S1x256_5_0 : S8x256.Slices ![5, 0] S1x256
  slices_S8x1024x2048_S1x1024x2048_6_0_0 : S8x1024x2048.Slices ![6, 0, 0] S1x1024x2048
  slices_S8x2048_S1x2048_6_0 : S8x2048.Slices ![6, 0] S1x2048
  slices_S8x2048x256_S1x2048x256_6_0_0 : S8x2048x256.Slices ![6, 0, 0] S1x2048x256
  slices_S8x256_S1x256_6_0 : S8x256.Slices ![6, 0] S1x256
  slices_S8x1024x2048_S1x1024x2048_7_0_0 : S8x1024x2048.Slices ![7, 0, 0] S1x1024x2048
  slices_S8x2048_S1x2048_7_0 : S8x2048.Slices ![7, 0] S1x2048
  slices_S8x2048x256_S1x2048x256_7_0_0 : S8x2048x256.Slices ![7, 0, 0] S1x2048x256
  slices_S8x256_S1x256_7_0 : S8x256.Slices ![7, 0] S1x256
  dot_S16384x1024_S1024x2048_S16384x2048_1_0_0_1_n_n_wf : DotDims.WF S16384x1024 S1024x2048 S16384x2048 [1] [0] [0] [1] [] []
  dot_S16384x2048_S2048x256_S16384x256_1_0_0_1_n_n_wf : DotDims.WF S16384x2048 S2048x256 S16384x256 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf

class Facts : Prop extends Facts₀ where

variable [Facts]
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibDenseLayer.lean ====
/-
  A dense layer and the gated activation, as whole-array functions over the extended reals.

  For a [P, K] array x, a [K, Q] array W and a row b of length Q the dense layer is
      dense x W b (p, q) = (∑ k, x (p, k) · W (k, q)) + b q,
  and the activation is y ↦ y · σ(y) with σ y = 1 / (1 + e^(-y)) (the logistic function, with its limits 0 and 1 at
  the two infinities).  A kernel spells the layer as a matrix product of the operands rounded to bf16, accumulated
  into zero, plus the row broadcast of a [1, Q] bias block; a host program spells it as a general dot product plus
  two broadcasts of a length-Q bias.  At the ideal instance a rounding is the identity and both products are the
  exact sum, so both spellings ARE `dense`.  Likewise the kernel's x · logistic x and the host's
  x · (1 / (1 + exp (-x))) are both the activation.

  An entry (p, q) of a layer depends on row p of x only: `dense_congr` and `mlp_congr` say so, which is what lets
  a block of rows be computed from a block of rows.
-/
import Idealize.ShloMosaic.Lib.ValueIdx
import Idealize.ShloMosaic.Lib.Pipeline.Value
import Idealize.ShloMosaic.PureOps.Ideal.Laws
import proofs.«141332_j72988674228879_1_alg».proof.Proof.LibPlainDot

noncomputable section

namespace DenseLayer

open Idealize.ShloMosaic Idealize.ShloMosaic.ValueIdx

variable {P P' K Q R : Nat}

/-- x · W + b, entry by entry. -/
def dense (x : (⟨2, ![P, K]⟩ : Shape).Idx → EReal) (W : (⟨2, ![K, Q]⟩ : Shape).Idx → EReal) (b : Fin Q → EReal) :
    (⟨2, ![P, Q]⟩ : Shape).Idx → EReal :=
  fun i => (∑ k : Fin K, x (ix2 (n0 := P) (i 0) k) * W (ix2 k (n1 := Q) (i 1))) + b (i 1)

theorem dense_ix2 (x : (⟨2, ![P, K]⟩ : Shape).Idx → EReal) (W : (⟨2, ![K, Q]⟩ : Shape).Idx → EReal) (b : Fin Q → EReal)
    (p : Fin P) (q : Fin Q) : dense x W b (ix2 p q) = (∑ k : Fin K, x (ix2 p k) * W (ix2 k q)) + b q := rfl

/-- The activation y · σ(y). -/
def act (y : EReal) : EReal := y * Ideal.logistic y

/-- The activation applied to every entry. -/
def actArr {s : Shape} (y : s.Idx → EReal) : s.Idx → EReal := fun i => act (y i)

/-- Two layers with the activation between them. -/
def mlp (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (actArr (dense x W b)) W' b'

/-- Entry (p, q) of a layer reads row p of its input, column q of its weights and entry q of its bias, and nothing else. -/
theorem dense_congr {x : (⟨2, ![P, K]⟩ : Shape).Idx → EReal} {x' : (⟨2, ![P', K]⟩ : Shape).Idx → EReal}
    {W W' : (⟨2, ![K, Q]⟩ : Shape).Idx → EReal} {b b' : Fin Q → EReal} {p : Fin P} {p' : Fin P'} {q : Fin Q}
    (hx : ∀ k, x (ix2 p k) = x' (ix2 p' k)) (hW : ∀ k, W (ix2 k q) = W' (ix2 k q)) (hb : b q = b' q) :
    dense x W b (ix2 p q) = dense x' W' b' (ix2 p' q) := by
  rw [dense_ix2, dense_ix2, hb]
  exact congrArg (· + b' q) (Finset.sum_congr rfl fun k _ => by rw [hx k, hW k])

/-- The same for two layers: entry (p, r) reads row p of the input. -/
theorem mlp_congr {x : (⟨2, ![P, K]⟩ : Shape).Idx → EReal} {x' : (⟨2, ![P', K]⟩ : Shape).Idx → EReal}
    {W W₀ : (⟨2, ![K, Q]⟩ : Shape).Idx → EReal} {b b₀ : Fin Q → EReal}
    {W' W₀' : (⟨2, ![Q, R]⟩ : Shape).Idx → EReal} {b' b₀' : Fin R → EReal} {p : Fin P} {p' : Fin P'} {r : Fin R}
    (hx : ∀ k, x (ix2 p k) = x' (ix2 p' k)) (hW : ∀ k q, W (ix2 k q) = W₀ (ix2 k q)) (hb : ∀ q, b q = b₀ q)
    (hW' : ∀ q, W' (ix2 q r) = W₀' (ix2 q r)) (hb' : b' r = b₀' r) :
    mlp x W b W' b' (ix2 p r) = mlp x' W₀ b₀ W₀' b₀' (ix2 p' r) :=
  dense_congr (fun q => congrArg act (dense_congr hx (fun k => hW k q) (hb q))) hW' hb'

/-- The float word of 1.0 is the real number one. -/
theorem ofBits_one : Ideal.ofBits .f32 0x3F800000#32 = 1 := by
  simp [Ideal.ofBits, Ideal.ieee, -EReal.coe_mul]; norm_num

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING of a layer: the product of the operands rounded to bf16, accumulated into zero, plus the row
    broadcast of a [1, Q] bias block. -/
theorem kernel_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hsc : (⟨2, ![1, Q]⟩ : Shape).ShapeCasts ⟨2, ![1, Q]⟩)
    (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ (shapeCast ⟨2, ![1, Q]⟩ b hsc) hbc)
    = dense x W (fun q => b (ix2 (0 : Fin 1) q)) := by
  funext j
  obtain ⟨p, q, rfl⟩ : ∃ (p : Fin P) (q : Fin Q), j = ix2 p q := ⟨j 0, j 1, eq_ix2 j⟩
  rw [shapeCast_self]
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- THE HOST'S SPELLING of a layer: the general dot product plus a length-Q bias broadcast to [1, Q] and then to [P, Q]. -/
theorem host_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (Host.dotGeneral d none x W) (broadcastInDim ⟨2, ![P, Q]⟩ ![0, 1] h2 (broadcastInDim ⟨2, ![1, Q]⟩ ![1] h1 b))
    = dense x W (fun q => b (ix1 q)) := by
  funext j
  obtain ⟨p, q, rfl⟩ : ∃ (p : Fin P) (q : Fin Q), j = ix2 p q := ⟨j 0, j 1, eq_ix2 j⟩
  show FloatOps.dotGeneral d none .single x W (ix2 p q)
      + broadcastInDim ⟨2, ![P, Q]⟩ ![0, 1] h2 (broadcastInDim ⟨2, ![1, Q]⟩ ![1] h1 b) (ix2 p q) = _
  rw [PlainDot.dotGeneral_apply hd, broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q)]
  rfl

/-- THE KERNEL'S SPELLING of the activation: y times the logistic of y. -/
theorem kernel_act {s : Shape} (y : FVec Ideal s .f32) : mulf y (logistic y) = actArr y := rfl

/-- THE HOST'S SPELLING of the activation: y times the quotient of one by one plus the exponential of minus y. -/
theorem host_act {s : Shape} (y : FVec Ideal s .f32) (h : (⟨0, ![]⟩ : Shape).BroadcastsInDim s ![]) :
    mulf y (Host.divf (broadcastInDim s ![] h (constant (F := Ideal) ⟨0, ![]⟩ .f32 0x3F800000#32))
      (addf (broadcastInDim s ![] h (constant (F := Ideal) ⟨0, ![]⟩ .f32 0x3F800000#32)) (Host.exp (Host.negf y))))
    = actArr y := by
  funext i
  have one : broadcastInDim s ![] h (constant (F := Ideal) ⟨0, ![]⟩ .f32 0x3F800000#32) i = (1 : EReal) :=
    (broadcastInDim_apply ![] h _ i ix0 (fun a => a.elim0)).trans ofBits_one
  show y i * Ideal.div (broadcastInDim s ![] h (constant (F := Ideal) ⟨0, ![]⟩ .f32 0x3F800000#32) i)
      (broadcastInDim s ![] h (constant (F := Ideal) ⟨0, ![]⟩ .f32 0x3F800000#32) i + Ideal.exp (-(y i))) = y i * Ideal.logistic (y i)
  rw [one]
  rfl

end DenseLayer

end
-- ==== Proof.Spec.lean ====
/-
  Two heads over a batch, as whole-array functions over the extended reals.

  A head is two dense layers with max(·, 0) between them:
      head x W b W' b' (p, r) = (∑ q, max ((∑ k, x (p, k) · W (k, q)) + b q, 0) · W' (q, r)) + b' r.
  The plain head applies one set of weights to every row.  The routed heads keep G sets of weights, stacked along a leading
  axis; row p carries a group word gid p, and its result is the head of group gid p when that word names one of the G groups,
  and zero otherwise.  Two ways to say so are compared here.  SELECTING: start from zero and, for g = 0, 1, …, replace row p
  by group g's head where gid p = g (`pick`).  ACCUMULATING: start from zero and, for g = 0, 1, …, add mask_g p · (group g's
  head at row p), where mask_g p is the word of the comparison gid p = g read as a number, 1 or 0 (`acc`).  On the extended
  reals 0 · y = 0 and 1 · y = y for EVERY y, infinite ones included, and 0 + y = y = y + 0, so each step of the sum either leaves the
  running value alone or, at the one g that matches, adds the head to a running value that is still zero: the two agree after
  every step (`acc_eq_pick`), with no finiteness asked of anything.

  An entry (p, r) of a head reads row p of x only (`head_congr`), which is what lets a block of rows be computed from a block
  of rows.
-/
import Idealize.ShloMosaic.Lib.ValueIdx
import Idealize.ShloMosaic.Lib.ValueLayout
import Idealize.ShloMosaic.Lib.Affine
import Idealize.ShloMosaic.Lib.Pipeline.Value
import Idealize.ShloMosaic.PureOps.Ideal.Laws
import proofs.«141332_j72988674228879_1_alg».proof.Proof.LibDenseLayer

noncomputable section

namespace RoutedHeads

open Idealize.ShloMosaic Idealize.ShloMosaic.ValueIdx DenseLayer

variable {P P' K Q R G : Nat}

/-- The float word of +0.0 at the ideal instance (it is the number zero: `Ideal.ofBits_zero_f32`). -/
abbrev zeroWord : EReal := Ideal.ofBits .f32 0x00000000#32

/-- max(y, 0), entry by entry. -/
def relu (y : (⟨2, ![P, Q]⟩ : Shape).Idx → EReal) : (⟨2, ![P, Q]⟩ : Shape).Idx → EReal := fun i => max (y i) zeroWord

/-- Two dense layers with max(·, 0) between them. -/
def head (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (relu (dense x W b)) W' b'

/-- Entry (p, r) of a head reads row p of the input, and of the second layer's weights and bias only column r. -/
theorem head_congr {x : (⟨2, ![P, K]⟩ : Shape).Idx → EReal} {x' : (⟨2, ![P', K]⟩ : Shape).Idx → EReal}
    {W W₀ : (⟨2, ![K, Q]⟩ : Shape).Idx → EReal} {b b₀ : Fin Q → EReal}
    {W' W₀' : (⟨2, ![Q, R]⟩ : Shape).Idx → EReal} {b' b₀' : Fin R → EReal} {p : Fin P} {p' : Fin P'} {r : Fin R}
    (hx : ∀ k, x (ix2 p k) = x' (ix2 p' k)) (hW : ∀ k q, W (ix2 k q) = W₀ (ix2 k q)) (hb : ∀ q, b q = b₀ q)
    (hW' : ∀ q, W' (ix2 q r) = W₀' (ix2 q r)) (hb' : b' r = b₀' r) :
    head x W b W' b' (ix2 p r) = head x' W₀ b₀ W₀' b₀' (ix2 p' r) :=
  dense_congr (fun q => congrArg (fun y => max y zeroWord) (dense_congr hx (fun k => hW k q) (hb q))) hW' hb'

/-- Group g's matrix out of a stack of G matrices. -/
def grp (W : (⟨3, ![G, K, Q]⟩ : Shape).Idx → EReal) (g : Fin G) : (⟨2, ![K, Q]⟩ : Shape).Idx → EReal :=
  fun i => W (ix3 g (i 0) (i 1))

/-- Group g's row out of a stack of G rows. -/
def row (b : (⟨2, ![G, Q]⟩ : Shape).Idx → EReal) (g : Fin G) : Fin Q → EReal := fun q => b (ix2 g q)

/-- Group g's head of the whole batch. -/
def expert (x : (⟨2, ![P, K]⟩ : Shape).Idx → EReal) (W1 : (⟨3, ![G, K, Q]⟩ : Shape).Idx → EReal)
    (b1 : (⟨2, ![G, Q]⟩ : Shape).Idx → EReal) (W2 : (⟨3, ![G, Q, R]⟩ : Shape).Idx → EReal)
    (b2 : (⟨2, ![G, R]⟩ : Shape).Idx → EReal) (g : Fin G) : (⟨2, ![P, R]⟩ : Shape).Idx → EReal :=
  head x (grp W1 g) (row b1 g) (grp W2 g) (row b2 g)

/-- The word of the comparison w = g, widened to 32 bits and read as a signed integer: the number 1 or 0. -/
def mask (w g : BitVec 32) : EReal := ((((IntOp.cmpi .eq w g).setWidth 32).toInt : ℝ) : EReal)

theorem mask_eq (w g : BitVec 32) : mask w g = if w = g then 1 else 0 := by
  unfold mask
  by_cases h : w = g
  · rw [if_pos h, IntOp.cmpi_eq.mpr h]
    have : ((1#1 : BitVec 1).setWidth 32).toInt = 1 := by decide
    rw [this]; norm_num
  · rw [if_neg h]
    have h0 : IntOp.cmpi .eq w g = 0#1 := eq_zero_of_ne_one (fun e => h (IntOp.cmpi_eq.mp e))
    rw [h0]
    have : ((0#1 : BitVec 1).setWidth 32).toInt = 0 := by decide
    rw [this]; norm_num

/-- SELECTING, after the first n groups. -/
def pick (gid : (⟨1, ![P]⟩ : Shape).Idx → BitVec 32) (o : Fin G → (⟨2, ![P, R]⟩ : Shape).Idx → EReal) :
    (n : ℕ) → n ≤ G → (⟨2, ![P, R]⟩ : Shape).Idx → EReal
  | 0, _ => fun _ => 0
  | n + 1, h => fun i => if gid (ix1 (i 0)) = BitVec.ofNat 32 n then o ⟨n, h⟩ i else pick gid o n (Nat.le_of_succ_le h) i

/-- ACCUMULATING, after the first n groups. -/
def acc (gid : (⟨1, ![P]⟩ : Shape).Idx → BitVec 32) (o : Fin G → (⟨2, ![P, R]⟩ : Shape).Idx → EReal) :
    (n : ℕ) → n ≤ G → (⟨2, ![P, R]⟩ : Shape).Idx → EReal
  | 0, _ => fun _ => 0
  | n + 1, h => fun i => acc gid o n (Nat.le_of_succ_le h) i + mask (gid (ix1 (i 0))) (BitVec.ofNat 32 n) * o ⟨n, h⟩ i

theorem acc_succ (gid : (⟨1, ![P]⟩ : Shape).Idx → BitVec 32) (o : Fin G → (⟨2, ![P, R]⟩ : Shape).Idx → EReal) (n : ℕ) (h : n + 1 ≤ G)
    (i : (⟨2, ![P, R]⟩ : Shape).Idx) :
    acc gid o (n + 1) h i = acc gid o n (Nat.le_of_succ_le h) i + mask (gid (ix1 (i 0))) (BitVec.ofNat 32 n) * o ⟨n, h⟩ i := rfl

/-- The running sum depends on the number of groups done and on the entry, not on how either is written. -/
theorem acc_at (gid : (⟨1, ![P]⟩ : Shape).Idx → BitVec 32) (o : Fin G → (⟨2, ![P, R]⟩ : Shape).Idx → EReal) {n n' : ℕ} (e : n = n')
    (h : n ≤ G) (h' : n' ≤ G) {a a' : ℕ} (ea : a = a') (ha : a < P) (ha' : a' < P) (r : Fin R) :
    acc gid o n h (ix2 (⟨a, ha⟩ : Fin P) r) = acc gid o n' h' (ix2 (⟨a', ha'⟩ : Fin P) r) := by
  subst e; subst ea; rfl

/-- Two small numbers are two different 32-bit words. -/
theorem ofNat_ne {k n : ℕ} (hk : k < n) (hn : n < 2 ^ 32) : BitVec.ofNat 32 k ≠ BitVec.ofNat 32 n := by
  intro h
  have e := congrArg BitVec.toNat h
  rw [BitVec.toNat_ofNat, BitVec.toNat_ofNat, Nat.mod_eq_of_lt (by omega), Nat.mod_eq_of_lt hn] at e
  omega

/-- A row whose group word names none of the first n groups is still at zero after them. -/
theorem pick_eq_zero (gid : (⟨1, ![P]⟩ : Shape).Idx → BitVec 32) (o : Fin G → (⟨2, ![P, R]⟩ : Shape).Idx → EReal)
    (i : (⟨2, ![P, R]⟩ : Shape).Idx) : ∀ (n : ℕ) (h : n ≤ G), (∀ k, k < n → gid (ix1 (i 0)) ≠ BitVec.ofNat 32 k) →
      pick gid o n h i = 0
  | 0, _, _ => rfl
  | n + 1, h, hne => by
    show (if gid (ix1 (i 0)) = BitVec.ofNat 32 n then o ⟨n, h⟩ i else pick gid o n (Nat.le_of_succ_le h) i) = 0
    rw [if_neg (hne n (Nat.lt_succ_self n))]
    exact pick_eq_zero gid o i n _ fun k hk => hne k (Nat.lt_succ_of_lt hk)

/-- THE LAW: the running sum is the running selection, after every group. -/
theorem acc_eq_pick (gid : (⟨1, ![P]⟩ : Shape).Idx → BitVec 32) (o : Fin G → (⟨2, ![P, R]⟩ : Shape).Idx → EReal)
    (hG : G < 2 ^ 32) : ∀ (n : ℕ) (h : n ≤ G), acc gid o n h = pick gid o n h
  | 0, _ => rfl
  | n + 1, h => by
    funext i
    show acc gid o n (Nat.le_of_succ_le h) i + mask (gid (ix1 (i 0))) (BitVec.ofNat 32 n) * o ⟨n, h⟩ i
      = if gid (ix1 (i 0)) = BitVec.ofNat 32 n then o ⟨n, h⟩ i else pick gid o n (Nat.le_of_succ_le h) i
    rw [acc_eq_pick gid o hG n (Nat.le_of_succ_le h), mask_eq]
    by_cases e : gid (ix1 (i 0)) = BitVec.ofNat 32 n
    · rw [if_pos e, if_pos e, one_mul,
        pick_eq_zero gid o i n _ (fun k hk => by rw [e]; exact (ofNat_ne hk (by omega)).symm), zero_add]
    · rw [if_neg e, if_neg e, zero_mul, add_zero]

end RoutedHeads

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.Spelling.lean ====
/-
  The spellings of a head, of max(·, 0) and of the routed update, at the ideal instance.

  A kernel spells a dense layer as a matrix product accumulated into zero plus the row broadcast of a [1, Q] bias block, rounds
  the hidden activations to bf16 on the way into the second product, and spells max(y, 0) against a broadcast zero word; a host
  program spells the layer as a general dot product plus two broadcasts of a length-Q bias and max(y, 0) against a broadcast
  zero constant.  At the ideal instance a rounding is the identity and both products are the exact sum, so all of these are the
  `head` of the specification.  The kernel's routed update is acc + mask · o with the mask a column [P, 1] broadcast over the
  lanes; the host's selection is a `select` under a [P] comparison broadcast to [P, 1] and then to [P, R].
-/
import proofs.«141332_j72988674228879_1_alg».proof.Proof.Spec
import proofs.«141332_j72988674228879_1_alg».proof.Proof.LibKeepDims

noncomputable section

namespace RoutedHeads

open Idealize.ShloMosaic Idealize.ShloMosaic.ValueIdx DenseLayer

variable {P K Q R : Nat}

/-- A matrix product accumulated into zero plus the row broadcast of a [1, Q] block is the dense layer. -/
theorem kdense {d : DotDims ⟨2, ![P, K]⟩ ⟨2, ![K, Q]⟩ ⟨2, ![P, Q]⟩} (hd : PlainDot.IsPlain d) {φ₁ φ₂ : FTy}
    (x : FVec Ideal ⟨2, ![P, K]⟩ φ₁) (W : FVec Ideal ⟨2, ![K, Q]⟩ φ₂) (bb : FVec Ideal ⟨2, ![1, Q]⟩ .f32)
    (hbc : (⟨2, ![1, Q]⟩ : Shape).Broadcasts ⟨2, ![P, Q]⟩) :
    addf (matmul d none x W (constant ⟨2, ![P, Q]⟩ .f32 0x00000000#32)) (broadcastTo ⟨2, ![P, Q]⟩ bb hbc)
    = dense x W (fun q => bb (ix2 (0 : Fin 1) q)) := by
  funext j
  obtain ⟨p, q, rfl⟩ : ∃ (p : Fin P) (q : Fin Q), j = ix2 p q := ⟨j 0, j 1, eq_ix2 j⟩
  show FloatOps.matmul d none x W (constant ⟨2, ![P, Q]⟩ .f32 0x00000000#32) (ix2 p q)
      + broadcastTo ⟨2, ![P, Q]⟩ bb hbc (ix2 p q) = _
  rw [PlainDot.matmul_zero_apply hd, broadcastTo_1b_ab_apply]
  rfl

/-- The kernel's max against a broadcast zero word, rounded to bf16, is max(·, 0). -/
theorem krelu (y : FVec Ideal ⟨2, ![P, Q]⟩ .f32) (h : FTy.bits .bf16 < FTy.bits .f32) :
    truncf .bf16 (maximumf y (broadcast ⟨2, ![P, Q]⟩ (Scalar.ofBits (F := Ideal) .f32 0x00000000#32))) h = relu y := rfl

/-- The host's max against a broadcast zero constant is max(·, 0). -/
theorem hrelu (y : FVec Ideal ⟨2, ![P, Q]⟩ .f32) (h : (⟨0, ![]⟩ : Shape).BroadcastsInDim ⟨2, ![P, Q]⟩ ![]) :
    maximumf y (broadcastInDim ⟨2, ![P, Q]⟩ ![] h (constant (F := Ideal) ⟨0, ![]⟩ .f32 0x00000000#32)) = relu y := by
  funext i
  show max (y i) (broadcastInDim ⟨2, ![P, Q]⟩ ![] h (constant (F := Ideal) ⟨0, ![]⟩ .f32 0x00000000#32) i) = max (y i) zeroWord
  rw [broadcastInDim_apply ![] h _ i ix0 (fun a => a.elim0)]
  rfl

/-- THE KERNEL'S SPELLING of a head. -/
theorem khead {d1 : DotDims ⟨2, ![P, K]⟩ ⟨2, ![K, Q]⟩ ⟨2, ![P, Q]⟩} {d2 : DotDims ⟨2, ![P, Q]⟩ ⟨2, ![Q, R]⟩ ⟨2, ![P, R]⟩}
    (hd1 : PlainDot.IsPlain d1) (hd2 : PlainDot.IsPlain d2)
    (x : FVec Ideal ⟨2, ![P, K]⟩ .bf16) (W : FVec Ideal ⟨2, ![K, Q]⟩ .bf16) (bb : FVec Ideal ⟨2, ![1, Q]⟩ .f32)
    (W' : FVec Ideal ⟨2, ![Q, R]⟩ .bf16) (bb' : FVec Ideal ⟨2, ![1, R]⟩ .f32)
    (hbc : (⟨2, ![1, Q]⟩ : Shape).Broadcasts ⟨2, ![P, Q]⟩) (hbc' : (⟨2, ![1, R]⟩ : Shape).Broadcasts ⟨2, ![P, R]⟩)
    (h : FTy.bits .bf16 < FTy.bits .f32) :
    addf (matmul d2 none
        (truncf .bf16 (maximumf (addf (matmul d1 none x W (constant ⟨2, ![P, Q]⟩ .f32 0x00000000#32)) (broadcastTo ⟨2, ![P, Q]⟩ bb hbc))
          (broadcast ⟨2, ![P, Q]⟩ (Scalar.ofBits (F := Ideal) .f32 0x00000000#32))) h)
        W' (constant ⟨2, ![P, R]⟩ .f32 0x00000000#32)) (broadcastTo ⟨2, ![P, R]⟩ bb' hbc')
    = head x W (fun q => bb (ix2 (0 : Fin 1) q)) W' (fun r => bb' (ix2 (0 : Fin 1) r)) := by
  rw [kdense hd1, krelu, kdense hd2]
  rfl

/-- THE HOST'S SPELLING of a head. -/
theorem hhead {d1 : DotDims ⟨2, ![P, K]⟩ ⟨2, ![K, Q]⟩ ⟨2, ![P, Q]⟩} {d2 : DotDims ⟨2, ![P, Q]⟩ ⟨2, ![Q, R]⟩ ⟨2, ![P, R]⟩}
    (hd1 : PlainDot.IsPlain d1) (hd2 : PlainDot.IsPlain d2)
    (x : FVec Ideal ⟨2, ![P, K]⟩ .f32) (W : FVec Ideal ⟨2, ![K, Q]⟩ .f32) (b : FVec Ideal ⟨1, ![Q]⟩ .f32)
    (W' : FVec Ideal ⟨2, ![Q, R]⟩ .f32) (b' : FVec Ideal ⟨1, ![R]⟩ .f32)
    (h1 : (⟨1, ![Q]⟩ : Shape).BroadcastsInDim ⟨2, ![1, Q]⟩ ![1]) (h2 : (⟨2, ![1, Q]⟩ : Shape).BroadcastsInDim ⟨2, ![P, Q]⟩ ![0, 1])
    (h1' : (⟨1, ![R]⟩ : Shape).BroadcastsInDim ⟨2, ![1, R]⟩ ![1]) (h2' : (⟨2, ![1, R]⟩ : Shape).BroadcastsInDim ⟨2, ![P, R]⟩ ![0, 1])
    (hz : (⟨0, ![]⟩ : Shape).BroadcastsInDim ⟨2, ![P, Q]⟩ ![]) :
    addf (Host.dotGeneral d2 none
        (maximumf (addf (Host.dotGeneral d1 none x W) (broadcastInDim ⟨2, ![P, Q]⟩ ![0, 1] h2 (broadcastInDim ⟨2, ![1, Q]⟩ ![1] h1 b)))
          (broadcastInDim ⟨2, ![P, Q]⟩ ![] hz (constant (F := Ideal) ⟨0, ![]⟩ .f32 0x00000000#32)))
        W') (broadcastInDim ⟨2, ![P, R]⟩ ![0, 1] h2' (broadcastInDim ⟨2, ![1, R]⟩ ![1] h1' b'))
    = head x W (fun q => b (ix1 q)) W' (fun r => b' (ix1 r)) := by
  rw [host_dense hd1, hrelu, host_dense hd2]
  rfl

/-- THE KERNEL'S ROUTED UPDATE at an entry: the running value plus the mask of the row times the group's head. -/
theorem kroute (a : FVec Ideal ⟨2, ![P, R]⟩ .f32) (gidc : IVec ⟨2, ![P, 1]⟩ 32) (g : BitVec 32) (o : FVec Ideal ⟨2, ![P, R]⟩ .f32)
    (hlt : 1 < 32) (hbc : (⟨2, ![P, 1]⟩ : Shape).Broadcasts ⟨2, ![P, R]⟩) (p : Fin P) (r : Fin R) :
    addf a (mulf (broadcastTo ⟨2, ![P, R]⟩ (sitofp .f32 (extui 32 (cmpi .eq gidc (broadcast ⟨2, ![P, 1]⟩ g)) hlt) : FVec Ideal ⟨2, ![P, 1]⟩ .f32) hbc) o) (ix2 p r)
    = a (ix2 p r) + mask (gidc (ix2 p (0 : Fin 1))) g * o (ix2 p r) := by
  show a (ix2 p r) + broadcastTo ⟨2, ![P, R]⟩ (sitofp .f32 (extui 32 (cmpi .eq gidc (broadcast ⟨2, ![P, 1]⟩ g)) hlt) : FVec Ideal ⟨2, ![P, 1]⟩ .f32) hbc (ix2 p r)
      * o (ix2 p r) = _
  rw [KeepDims.broadcastTo_a1_ab_apply]
  rfl

/-- THE HOST'S SELECTION STEP: where the row's group word is g take o, elsewhere keep what was there. -/
theorem hpick (gid : IVec ⟨1, ![P]⟩ 32) (g : BitVec 32) (o prev : (⟨2, ![P, R]⟩ : Shape).Idx → EReal)
    (h0 : (⟨0, ![]⟩ : Shape).BroadcastsInDim ⟨1, ![P]⟩ ![]) (h1 : (⟨1, ![P]⟩ : Shape).BroadcastsInDim ⟨2, ![P, 1]⟩ ![0])
    (h2 : (⟨2, ![P, 1]⟩ : Shape).BroadcastsInDim ⟨2, ![P, R]⟩ ![0, 1]) :
    select (broadcastInDim ⟨2, ![P, R]⟩ ![0, 1] h2 (broadcastInDim ⟨2, ![P, 1]⟩ ![0] h1
        (cmpi .eq gid (broadcastInDim ⟨1, ![P]⟩ ![] h0 (constantI ⟨0, ![]⟩ 32 g))))) o prev
    = fun i => if gid (ix1 (i 0)) = g then o i else prev i := by
  funext i
  obtain ⟨p, r, rfl⟩ : ∃ (p : Fin P) (r : Fin R), i = ix2 p r := ⟨i 0, i 1, eq_ix2 i⟩
  rw [select_apply]
  rw [broadcastInDim_apply ![0, 1] h2 _ (ix2 p r) (ix2 p (0 : Fin 1)) (fun a => match a with
    | ⟨0, _⟩ => by
      show p.val = if P = 1 then 0 else p.val
      split
      · have := p.isLt; omega
      · rfl
    | ⟨1, _⟩ => by show 0 = if (1 : Nat) = 1 then 0 else r.val; rw [if_pos rfl]),
    broadcastInDim_apply ![0] h1 _ (ix2 p (0 : Fin 1)) (ix1 p) (fun a => match a with
    | ⟨0, _⟩ => by
      show p.val = if P = 1 then 0 else p.val
      split
      · have := p.isLt; omega
      · rfl)]
  show Scalar.select (IntOp.cmpi .eq (gid (ix1 p)) (broadcastInDim ⟨1, ![P]⟩ ![] h0 (constantI ⟨0, ![]⟩ 32 g) (ix1 p))) _ _ = _
  rw [broadcastInDim_apply ![] h0 _ (ix1 p) ix0 (fun a => a.elim0), constantI_apply]
  show _ = if gid (ix1 p) = g then o (ix2 p r) else prev (ix2 p r)
  by_cases e : gid (ix1 p) = g
  · rw [if_pos e, IntOp.cmpi_eq.mpr e, select_one]
  · rw [if_neg e, eq_zero_of_ne_one (fun e' => e (IntOp.cmpi_eq.mp e')), select_zero]

end RoutedHeads

end
-- ==== Proof.HostSlices.lean ====
/-
  How a host program takes one group's weights out of a stack, and a whole group's head in the host's spelling.

  A unit slice along the leading axis at offset g, followed by a reshape that drops that axis, is group g's matrix (or row).
  With the spelling of a head, the host's per-group term — dot product, bias, max, dot product, bias, each weight a slice — is the
  specification's `expert`.  Also: a broadcast zero constant is the zero array, and a reshape [a, b] → [a, 1, b] read at (g, 0, q).
-/
import proofs.«141332_j72988674228879_1_alg».proof.Proof.Spelling

noncomputable section

namespace RoutedHeads

open Idealize.ShloMosaic Idealize.ShloMosaic.ValueIdx DenseLayer

variable {P K Q R G : Nat}

/-- Group g's matrix as the host takes it. -/
theorem hgrp (W : (⟨3, ![G, K, Q]⟩ : Shape).Idx → EReal) (g : ℕ) (hg : g < G)
    (hs : (⟨3, ![G, K, Q]⟩ : Shape).Slices ![g, 0, 0] ⟨3, ![1, K, Q]⟩) (hc : (⟨3, ![1, K, Q]⟩ : Shape).ShapeCasts ⟨2, ![K, Q]⟩) :
    shapeCast ⟨2, ![K, Q]⟩ (extractStridedSlice ⟨3, ![1, K, Q]⟩ ![g, 0, 0] W hs) hc = grp W ⟨g, hg⟩ := by
  funext j
  obtain ⟨k, q, rfl⟩ : ∃ (k : Fin K) (q : Fin Q), j = ix2 k q := ⟨j 0, j 1, eq_ix2 j⟩
  rw [shapeCast_1ab_ab_apply]
  exact extractStridedSlice_apply ![g, 0, 0] W hs (ix3 (0 : Fin 1) k q) (ix3 (⟨g, hg⟩ : Fin G) k q) (fun a => match a with
    | ⟨0, _⟩ => rfl
    | ⟨1, _⟩ => (Nat.zero_add _).symm
    | ⟨2, _⟩ => (Nat.zero_add _).symm)

/-- Group g's row as the host takes it. -/
theorem hrow (b : (⟨2, ![G, Q]⟩ : Shape).Idx → EReal) (g : ℕ) (hg : g < G)
    (hs : (⟨2, ![G, Q]⟩ : Shape).Slices ![g, 0] ⟨2, ![1, Q]⟩) (hc : (⟨2, ![1, Q]⟩ : Shape).ShapeCasts ⟨1, ![Q]⟩) :
    (fun q : Fin Q => shapeCast ⟨1, ![Q]⟩ (extractStridedSlice ⟨2, ![1, Q]⟩ ![g, 0] b hs) hc (ix1 q)) = row b ⟨g, hg⟩ := by
  funext q
  rw [shapeCast_1a_a_apply]
  exact extractStridedSlice_apply ![g, 0] b hs (ix2 (0 : Fin 1) q) (ix2 (⟨g, hg⟩ : Fin G) q) (fun a => match a with
    | ⟨0, _⟩ => rfl
    | ⟨1, _⟩ => (Nat.zero_add _).symm)

/-- THE HOST'S SPELLING of group g's head of the whole batch. -/
theorem hexpert {d1 : DotDims ⟨2, ![P, K]⟩ ⟨2, ![K, Q]⟩ ⟨2, ![P, Q]⟩} {d2 : DotDims ⟨2, ![P, Q]⟩ ⟨2, ![Q, R]⟩ ⟨2, ![P, R]⟩}
    (hd1 : PlainDot.IsPlain d1) (hd2 : PlainDot.IsPlain d2)
    (x : FVec Ideal ⟨2, ![P, K]⟩ .f32) (W1 : FVec Ideal ⟨3, ![G, K, Q]⟩ .f32) (b1 : FVec Ideal ⟨2, ![G, Q]⟩ .f32)
    (W2 : FVec Ideal ⟨3, ![G, Q, R]⟩ .f32) (b2 : FVec Ideal ⟨2, ![G, R]⟩ .f32) (g : ℕ) (hg : g < G)
    (hs1 : (⟨3, ![G, K, Q]⟩ : Shape).Slices ![g, 0, 0] ⟨3, ![1, K, Q]⟩) (hc1 : (⟨3, ![1, K, Q]⟩ : Shape).ShapeCasts ⟨2, ![K, Q]⟩)
    (hs2 : (⟨2, ![G, Q]⟩ : Shape).Slices ![g, 0] ⟨2, ![1, Q]⟩) (hc2 : (⟨2, ![1, Q]⟩ : Shape).ShapeCasts ⟨1, ![Q]⟩)
    (hs3 : (⟨3, ![G, Q, R]⟩ : Shape).Slices ![g, 0, 0] ⟨3, ![1, Q, R]⟩) (hc3 : (⟨3, ![1, Q, R]⟩ : Shape).ShapeCasts ⟨2, ![Q, R]⟩)
    (hs4 : (⟨2, ![G, R]⟩ : Shape).Slices ![g, 0] ⟨2, ![1, R]⟩) (hc4 : (⟨2, ![1, R]⟩ : Shape).ShapeCasts ⟨1, ![R]⟩)
    (h1 : (⟨1, ![Q]⟩ : Shape).BroadcastsInDim ⟨2, ![1, Q]⟩ ![1]) (h2 : (⟨2, ![1, Q]⟩ : Shape).BroadcastsInDim ⟨2, ![P, Q]⟩ ![0, 1])
    (h1' : (⟨1, ![R]⟩ : Shape).BroadcastsInDim ⟨2, ![1, R]⟩ ![1]) (h2' : (⟨2, ![1, R]⟩ : Shape).BroadcastsInDim ⟨2, ![P, R]⟩ ![0, 1])
    (hz : (⟨0, ![]⟩ : Shape).BroadcastsInDim ⟨2, ![P, Q]⟩ ![]) :
    addf (Host.dotGeneral d2 none
        (maximumf (addf (Host.dotGeneral d1 none x (shapeCast ⟨2, ![K, Q]⟩ (extractStridedSlice ⟨3, ![1, K, Q]⟩ ![g, 0, 0] W1 hs1) hc1))
            (broadcastInDim ⟨2, ![P, Q]⟩ ![0, 1] h2 (broadcastInDim ⟨2, ![1, Q]⟩ ![1] h1
              (shapeCast ⟨1, ![Q]⟩ (extractStridedSlice ⟨2, ![1, Q]⟩ ![g, 0] b1 hs2) hc2))))
          (broadcastInDim ⟨2, ![P, Q]⟩ ![] hz (constant (F := Ideal) ⟨0, ![]⟩ .f32 0x00000000#32)))
        (shapeCast ⟨2, ![Q, R]⟩ (extractStridedSlice ⟨3, ![1, Q, R]⟩ ![g, 0, 0] W2 hs3) hc3))
      (broadcastInDim ⟨2, ![P, R]⟩ ![0, 1] h2' (broadcastInDim ⟨2, ![1, R]⟩ ![1] h1'
        (shapeCast ⟨1, ![R]⟩ (extractStridedSlice ⟨2, ![1, R]⟩ ![g, 0] b2 hs4) hc4)))
    = expert x W1 b1 W2 b2 ⟨g, hg⟩ := by
  rw [hhead hd1 hd2, hgrp W1 g hg, hgrp W2 g hg, hrow b1 g hg, hrow b2 g hg]
  rfl

/-- A broadcast zero constant is the zero array. -/
theorem hzero (h : (⟨0, ![]⟩ : Shape).BroadcastsInDim ⟨2, ![P, R]⟩ ![]) :
    broadcastInDim ⟨2, ![P, R]⟩ ![] h (constant (F := Ideal) ⟨0, ![]⟩ .f32 0x00000000#32) = fun _ => (0 : EReal) := by
  funext i
  rw [broadcastInDim_apply ![] h _ i ix0 (fun a => a.elim0)]
  exact Ideal.ofBits_zero_f32

/-- An [a, b] array cast to [a, 1, b] reads, at (g, u, q), the operand at (g, q). -/
theorem shapeCast_ab_a1b_apply {α : Type} {a b : ℕ} (x : (⟨2, ![a, b]⟩ : Shape).Idx → α)
    (h : (⟨2, ![a, b]⟩ : Shape).ShapeCasts ⟨3, ![a, 1, b]⟩) (g : Fin a) (u : Fin 1) (q : Fin b) :
    shapeCast ⟨3, ![a, 1, b]⟩ x h (ix3 g u q) = x (ix2 g q) :=
  shapeCast_apply x h _ _ (by
    have hu : u.val = 0 := by omega
    rw [Shape.rowMajor_val_three, Shape.rowMajor_val_two]
    show g.val * b + q.val = (g.val * 1 + u.val) * b + q.val
    rw [hu, Nat.mul_one, Nat.add_zero])

end RoutedHeads

end
-- ==== Proof.RefValue.lean ====
/-
  The reference's two results, at the ideal instance, as the specification's functions of the arguments.

  The plain result's term is one head in the host's spelling.  The routed result's term is eight nested selections, group 7
  outermost, each over one group's head in the host's spelling with that group's weights sliced out of the stacks, over a broadcast
  zero: fold each head, then each selection, and what is left is the chain of selections `pick` after all eight groups.
-/
import proofs.«141332_j72988674228879_1_alg».proof.Proof.RefRunPatched
import proofs.«141332_j72988674228879_1_alg».proof.Proof.HostSlices

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx RoutedHeads
open Idealize.SL.Sem

theorem hd1 : PlainDot.IsPlain dot_S16384x1024_S1024x2048_S16384x2048_1_0_0_1_n_n := ⟨rfl, rfl, rfl, rfl, rfl, rfl⟩
theorem hd2 : PlainDot.IsPlain dot_S16384x2048_S2048x256_S16384x256_1_0_0_1_n_n := ⟨rfl, rfl, rfl, rfl, rfl, rfl⟩

variable (m : (ℓ : Loc nD τ sig) → Buf (Elt Ideal) ℓ) (c : Dev nD)

/-- The plain result's term is the head of x with the shared weights. -/
theorem plain_eq (x : FVec Ideal S16384x1024 .f32) (Wg1 : FVec Ideal S1024x2048 .f32) (bg1 : FVec Ideal S2048 .f32)
    (Wg2 : FVec Ideal S2048x256 .f32) (bg2 : FVec Ideal S256 .f32) :
    addf (Host.dotGeneral dot_S16384x2048_S2048x256_S16384x256_1_0_0_1_n_n none (maximumf (addf (Host.dotGeneral dot_S16384x1024_S1024x2048_S16384x2048_1_0_0_1_n_n none x Wg1) (broadcastInDim S16384x2048 ![0, 1] bcast_S1x2048_S16384x2048_0_1 (broadcastInDim S1x2048 ![1] bcast_S2048_S1x2048_1 bg1))) (broadcastInDim S16384x2048 ![] bcast_S_S16384x2048 (constant S_ .f32 0x00000000#32))) Wg2) (broadcastInDim S16384x256 ![0, 1] bcast_S1x256_S16384x256_0_1 (broadcastInDim S1x256 ![1] bcast_S256_S1x256_1 bg2))
    = head x Wg1 (fun q => bg1 (ix1 q)) Wg2 (fun r => bg2 (ix1 r)) :=
  hhead hd1 hd2 x Wg1 bg1 Wg2 bg2 _ _ _ _ _

/-- The routed result is the selection over all eight groups of the groups' heads. -/
theorem routed_eq :
    res_main_v177 (F := Ideal) m c
    = pick (P := 16384) (R := 256) (G := 8) (m ((c.tc : Thread nD τ).loc main_arg1)) (expert (P := 16384) (K := 1024) (Q := 2048) (R := 256) (G := 8) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) 8 le_rfl := by
  unfold res_main_v177
  rw [hexpert hd1 hd2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) 7 (by decide),
    hexpert hd1 hd2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) 6 (by decide),
    hexpert hd1 hd2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) 5 (by decide),
    hexpert hd1 hd2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) 4 (by decide),
    hexpert hd1 hd2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) 3 (by decide),
    hexpert hd1 hd2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) 2 (by decide),
    hexpert hd1 hd2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) 1 (by decide),
    hexpert hd1 hd2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) 0 (by decide),
    hzero]
  rw [hpick, hpick, hpick, hpick, hpick, hpick, hpick, hpick]
  rfl

end Cert.ReferenceIdeal.RefValue

end
-- ==== Proof.KernelRun.lean ====
/-
  The idealized kernel's run, with its two result arrays named.

  @main is a stretch of eight host operations (five roundings to bf16, three reshapes) and then two grids of kernel launches.
  Every weakly fair execution terminates without a fault, and every buffer of the TensorCore ends at the contents the last
  launch leaves: what was there when that launch began, except the arrays its windows cover, which end at what its write-backs
  fold into them.  Read at the two result buffers: the routed result is the second launch's output array after its last grid
  point, and the plain result, which the second launch never touches, is the first launch's output array after its last grid
  point.  The ten argument arrays end as launched.
-/
import proofs.«141332_j72988674228879_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The routed result's buffer is the second launch's output array: at the end it holds that array after the last grid point. -/
theorem routed_end (c : Dev nD) : W3 m ρ c (Proc.devRef .tc main_v9) = (dat1 (V2 m ρ) c).arrAt 6 cfg1.N :=
  W3_arr m ρ c 6

/-- The plain result's buffer is no array of the second launch, and is the first launch's output array. -/
theorem plain_end (c : Dev nD) : W3 m ρ c (Proc.devRef .tc main_v8) = (dat0 (V1 m ρ) c).arrAt 5 cfg0.N :=
  (W3_of_ne m ρ c main_v8 (by decide)).trans (W2_arr m ρ c 5)

set_option backward.isDefEq.respectTransparency.types false in
/-- Every weakly fair execution of @main terminates, nothing faulting, with the two results at the last boundary's contents
    and the arguments as launched. -/
theorem run : θ_run defs (onTc (τ := τ) (main (F := F))) ⟨m, fun _ => 0, ρ⟩ (fun r => ∀ c : Dev nD,
      r.2.mem ((c.tc : Thread nD τ).loc main_v9) = W3 m ρ c (Proc.devRef .tc main_v9)
      ∧ r.2.mem ((c.tc : Thread nD τ).loc main_v8) = W3 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v9 (by decide)),
       h c _ (mem_uc main_v8 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Results

end
-- ==== Proof.KernelPay.lean ====
/-
  What the two kernel bodies compute, as pure functions of the blocks they load, at the ideal instance.

  The plain kernel's one store is the head of its five input blocks: rows of x, the two weight matrices whole, and the two
  biases as vectors.  The routed kernel's store is the running output block plus mask · head, the head taken with ONE group's
  weights (the blocks carry a leading unit axis, which the body drops) and the mask the comparison of the block's column of group
  words with the grid's second coordinate.
-/
import proofs.«141332_j72988674228879_1_alg».proof.Proof.Gen.KernelIdeal.Skeleton
import proofs.«141332_j72988674228879_1_alg».proof.Proof.Spelling

set_option maxRecDepth 16384

noncomputable section

namespace Cert.KernelIdeal.Pay

open Cert.KernelIdeal Cert.KernelIdeal.Gen
open Idealize.ShloMosaic Idealize.ShloMosaic.ValueIdx RoutedHeads

/-- Both matrix products of the bodies are plain products. -/
theorem hd1 : PlainDot.IsPlain dot_S1024x1024_S1024x2048_S1024x2048_1_0_0_1_n_n := ⟨rfl, rfl, rfl, rfl, rfl, rfl⟩
theorem hd2 : PlainDot.IsPlain dot_S1024x2048_S2048x256_S1024x256_1_0_0_1_n_n := ⟨rfl, rfl, rfl, rfl, rfl, rfl⟩

/-- THE PLAIN BODY: the head of its blocks. -/
theorem pay_plain (v0 : Vec Ideal S1024x1024 .bf16) (v2 : Vec Ideal S1024x2048 .bf16) (v5 : Vec Ideal S2048 .f32)
    (v12 : Vec Ideal S2048x256 .bf16) (v15 : Vec Ideal S256 .f32) :
    k0_pay1 (F := Ideal) v0 v2 v5 v12 v15 = head v0 v2 (fun q => v5 (ix1 q)) v12 (fun r => v15 (ix1 r)) := by
  unfold k0_pay1
  dsimp only
  rw [shapeCast_self, shapeCast_self, shapeCast_self]
  refine (khead hd1 hd2 v0 v2 (shapeCast S1x2048 v5 shapeCasts_S2048_S1x2048) v12 (shapeCast S1x256 v15 shapeCasts_S256_S1x256) _ _ _).trans ?_
  have e1 : (fun q : Fin 2048 => shapeCast S1x2048 v5 shapeCasts_S2048_S1x2048 (ix2 (0 : Fin 1) q)) = fun q => v5 (ix1 q) :=
    funext fun q => shapeCast_a_1a_apply v5 _ 0 q
  have e2 : (fun r : Fin 256 => shapeCast S1x256 v15 shapeCasts_S256_S1x256 (ix2 (0 : Fin 1) r)) = fun r => v15 (ix1 r) :=
    funext fun r => shapeCast_a_1a_apply v15 _ 0 r
  rw [e1, e2]

/-- THE ROUTED BODY at an entry: the running value plus the row's mask times one group's head. -/
theorem pay_routed (i : grid1.Coords) (v3 : Vec Ideal S1024x1024 .bf16) (v5 : Vec Ideal S1x1024x2048 .bf16) (v8 : Vec Ideal S1x1x2048 .f32)
    (v15 : Vec Ideal S1x2048x256 .bf16) (v18 : Vec Ideal S1x1x256 .f32) (v22 : Vec Ideal S1024x1 .i32) (v28 : Vec Ideal S1024x256 .f32)
    (p : Fin 1024) (r : Fin 256) :
    k1_pay2 (F := Ideal) i v3 v5 v8 v15 v18 v22 v28 (ix2 p r)
    = v28 (ix2 p r) + mask (v22 (ix2 p (0 : Fin 1))) (BitVec.ofNat 32 (i 1).val)
        * head v3 (shapeCast S1024x2048 v5 shapeCasts_S1x1024x2048_S1024x2048)
            (fun q => v8 (ix3 (0 : Fin 1) (0 : Fin 1) q))
            (shapeCast S2048x256 v15 shapeCasts_S1x2048x256_S2048x256)
            (fun q => v18 (ix3 (0 : Fin 1) (0 : Fin 1) q)) (ix2 p r) := by
  unfold k1_pay2
  dsimp only
  rw [shapeCast_self, shapeCast_self, shapeCast_self]
  refine (kroute v28 v22 (BitVec.ofNat 32 (i 1).val) _ _ _ p r).trans ?_
  rw [khead hd1 hd2 v3 (shapeCast S1024x2048 v5 shapeCasts_S1x1024x2048_S1024x2048) (shapeCast S1x2048 v8 shapeCasts_S1x1x2048_S1x2048)
    (shapeCast S2048x256 v15 shapeCasts_S1x2048x256_S2048x256) (shapeCast S1x256 v18 shapeCasts_S1x1x256_S1x256)]
  have e1 : (fun q : Fin 2048 => shapeCast S1x2048 v8 shapeCasts_S1x1x2048_S1x2048 (ix2 (0 : Fin 1) q)) = fun q => v8 (ix3 (0 : Fin 1) (0 : Fin 1) q) :=
    funext fun q => shapeCast_1ab_ab_apply v8 _ 0 q
  have e2 : (fun q : Fin 256 => shapeCast S1x256 v18 shapeCasts_S1x1x256_S1x256 (ix2 (0 : Fin 1) q)) = fun q => v18 (ix3 (0 : Fin 1) (0 : Fin 1) q) :=
    funext fun q => shapeCast_1ab_ab_apply v18 _ 0 q
  rw [e1, e2]

end Cert.KernelIdeal.Pay

end
-- ==== Proof.Region0.lean ====
/-
  The first launch: the plain head, one block of 1024 rows per grid point.

  Grid point t reads rows 1024·t … 1024·t + 1023 of x and the two weight matrices and the two biases whole, and writes back
  rows 1024·t … of the output.  An entry of a head reads one row of x only, so what point t writes back is block t of ONE
  whole-array function, the head of the arrays as the launch finds them; the sixteen blocks tile the output array, so after the
  last point the array is that function.
-/
import proofs.«141332_j72988674228879_1_alg».proof.Proof.Gen.KernelIdeal.Frame
import proofs.«141332_j72988674228879_1_alg».proof.Proof.KernelPay

set_option maxRecDepth 16384

noncomputable section

namespace Cert.KernelIdeal.Plain

open Cert.KernelIdeal Cert.KernelIdeal.Gen Cert.KernelIdeal.Pay
open Idealize.ShloMosaic Idealize.ShloMosaic.TcCoe Idealize.ShloMosaic.ValueIdx RoutedHeads
open Idealize.SL.Sem
open Idealize.ShloMosaic.Pipeline (Dat)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

theorem t_lt (t : Fin cfg0.N) : t.val < 16 := lt_of_lt_of_eq t.isLt N_0

/-- The printed index maps, decided over the grid: the row blocks of x and of the output move with the point, every other
    block stays at the origin. -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The plain head of the arrays as the launch finds them. -/
def G (c : Dev nD) : Buf (Elt Ideal) ((c : Thread nD τ).loc main_v8) :=
  head (V c main_v0) (V c main_v3) (fun q => V c main_arg7 (ix1 q)) (V c main_v4) (fun r => V c main_arg9 (ix1 r))

/-- Row r of x's block at point t is row 1024·t + r of x. -/
theorem blk_x (c : Dev nD) (t : Fin cfg0.N) (r : Fin 1024) (k : Fin 1024) :
    iblk0 V c 0 t (ix2 r k) = V c main_v0 (ix2 (⟨t.val * 1024 + r.val, by have := t_lt t; have := r.isLt; omega⟩ : Fin 16384) k) := by
  show V c main_v0 (((cfg0.win 0).blk t).view.emb (ix2 r k)) = _
  refine congrArg (V c main_v0) (funext fun a => Fin.ext ?_)
  obtain ⟨e0, e1, -⟩ := idx t
  match a with
  | ⟨0, _⟩ => show win0_0.index t (0 : Fin 2) * 1024 + 1 * r.val = t.val * 1024 + r.val; rw [e0]; omega
  | ⟨1, _⟩ => show win0_0.index t (1 : Fin 2) * 1024 + 1 * k.val = k.val; rw [e1]; omega

/-- The first layer's weights are read whole. -/
theorem blk_W (c : Dev nD) (t : Fin cfg0.N) (k : Fin 1024) (q : Fin 2048) : iblk0 V c 1 t (ix2 k q) = V c main_v3 (ix2 k q) := by
  show V c main_v3 (((cfg0.win 1).blk t).view.emb (ix2 k q)) = _
  refine congrArg (V c main_v3) (funext fun a => Fin.ext ?_)
  obtain ⟨-, -, e0, e1, -⟩ := idx t
  match a with
  | ⟨0, _⟩ => show win0_1.index t (0 : Fin 2) * 1024 + 1 * k.val = k.val; rw [e0]; omega
  | ⟨1, _⟩ => show win0_1.index t (1 : Fin 2) * 2048 + 1 * q.val = q.val; rw [e1]; omega

theorem blk_b (c : Dev nD) (t : Fin cfg0.N) (q : Fin 2048) : iblk0 V c 2 t (ix1 q) = V c main_arg7 (ix1 q) := by
  show V c main_arg7 (((cfg0.win 2).blk t).view.emb (ix1 q)) = _
  refine congrArg (V c main_arg7) (funext fun a => Fin.ext ?_)
  obtain ⟨-, -, -, -, e0, -⟩ := idx t
  match a with
  | ⟨0, _⟩ => show win0_2.index t (0 : Fin 1) * 2048 + 1 * q.val = q.val; rw [e0]; omega

theorem blk_W' (c : Dev nD) (t : Fin cfg0.N) (q : Fin 2048) (r : Fin 256) : iblk0 V c 3 t (ix2 q r) = V c main_v4 (ix2 q r) := by
  show V c main_v4 (((cfg0.win 3).blk t).view.emb (ix2 q r)) = _
  refine congrArg (V c main_v4) (funext fun a => Fin.ext ?_)
  obtain ⟨-, -, -, -, -, e0, e1, -⟩ := idx t
  match a with
  | ⟨0, _⟩ => show win0_3.index t (0 : Fin 2) * 2048 + 1 * q.val = q.val; rw [e0]; omega
  | ⟨1, _⟩ => show win0_3.index t (1 : Fin 2) * 256 + 1 * r.val = r.val; rw [e1]; omega

theorem blk_b' (c : Dev nD) (t : Fin cfg0.N) (r : Fin 256) : iblk0 V c 4 t (ix1 r) = V c main_arg9 (ix1 r) := by
  show V c main_arg9 (((cfg0.win 4).blk t).view.emb (ix1 r)) = _
  refine congrArg (V c main_arg9) (funext fun a => Fin.ext ?_)
  obtain ⟨-, -, -, -, -, -, -, e0, -⟩ := idx t
  match a with
  | ⟨0, _⟩ => show win0_4.index t (0 : Fin 1) * 256 + 1 * r.val = r.val; rw [e0]; omega

/-- Entry (r, q) of the output's block at point t sits at (1024·t + r, q) of the output array. -/
theorem emb_out (t : Fin cfg0.N) (r : Fin 1024) (q : Fin 256) :
    ((cfg0.win 5).blk t).view.emb (ix2 r q) = ix2 (⟨t.val * 1024 + r.val, by have := t_lt t; have := r.isLt; omega⟩ : Fin 16384) q := by
  funext a
  apply Fin.ext
  obtain ⟨-, -, -, -, -, -, -, -, e0, e1⟩ := idx t
  match a with
  | ⟨0, _⟩ => show win0_5.index t (0 : Fin 2) * 1024 + 1 * r.val = t.val * 1024 + r.val; rw [e0]; omega
  | ⟨1, _⟩ => show win0_5.index t (1 : Fin 2) * 256 + 1 * q.val = q.val; rw [e1]; omega

/-- WHAT POINT t WRITES BACK is block t of the head of the arrays as the launch finds them. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S1024x1024) hz2, View.ld_unit_zero (S := S1024x2048) hz2, View.ld_unit_zero (S := S2048) hz1,
    View.ld_unit_zero (S := S2048x256) hz2, View.ld_unit_zero (S := S256) hz1]
  rw [pay_plain]
  funext y
  obtain ⟨r, q, rfl⟩ : ∃ (r : Fin 1024) (q : Fin 256), y = ix2 r q := ⟨y 0, y 1, eq_ix2 y⟩
  show head (iblk0 V c 0 t) (iblk0 V c 1 t) (fun q => iblk0 V c 2 t (ix1 q)) (iblk0 V c 3 t) (fun r => iblk0 V c 4 t (ix1 r)) (ix2 r q)
    = G V c (((cfg0.win 5).blk t).view.emb (ix2 r q))
  rw [emb_out t r q]
  exact head_congr (fun k => blk_x V c t r k) (fun k q' => blk_W V c t k q') (fun q' => blk_b V c t q')
    (fun q' => blk_W' V c t q' q) (blk_b' V c t q)

/-- An index of the output array is in point t's block iff each coordinate is in the block's range on its axis. -/
theorem mem_blk (t : Fin cfg0.N) (i : S16384x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v8).slice (win0_5.rect t)).set ↔ _
  rw [View.set_slice_whole, Rect.mem_set_unit]
  exact Iff.rfl

/-- Row i of the output array is written back by the point i / 1024. -/
theorem cover (i : S16384x256.Idx) : ∃ t : Fin cfg0.N, (cfg0.win 5).flush t = true ∧ i ∈ ((cfg0.win 5).blk t).view.set := by
  have hi0 : (i 0).val < 16384 := (i 0).isLt
  have hi1 : (i 1).val < 256 := (i 1).isLt
  have hN : cfg0.N = 16 := N_0
  have hlt : (i 0).val / 1024 < cfg0.N := by rw [hN]; omega
  refine ⟨⟨(i 0).val / 1024, hlt⟩, flush0_5 _, ?_⟩
  rw [mem_blk]
  obtain ⟨-, -, -, -, -, -, -, -, e0, e1⟩ := idx ⟨(i 0).val / 1024, hlt⟩
  intro a
  match a with
  | ⟨0, _⟩ =>
    show win0_5.index ⟨(i 0).val / 1024, hlt⟩ (0 : Fin 2) * 1024 ≤ (i 0).val ∧ (i 0).val < win0_5.index ⟨(i 0).val / 1024, hlt⟩ (0 : Fin 2) * 1024 + 1024
    rw [e0]; dsimp only; omega
  | ⟨1, _⟩ =>
    show win0_5.index ⟨(i 0).val / 1024, hlt⟩ (1 : Fin 2) * 256 ≤ (i 1).val ∧ (i 1).val < win0_5.index ⟨(i 0).val / 1024, hlt⟩ (1 : Fin 2) * 256 + 256
    rw [e1]; omega

/-- THE OUTPUT ARRAY after the last point is the head of the arrays as the launch finds them. -/
theorem final (c : Dev nD) : (dat0 V c).arrAt 5 cfg0.N = G V c :=
  (dat0 V c).arrAt_eq_of_cover 5 (G V c) (fun t _ => flushed_eq V c t) (cover)

end Cert.KernelIdeal.Plain

end
-- ==== Proof.Region1Cases.lean ====
/-
  The second launch, part one: what one grid point leaves in the output's staging buffer.

  The body either finds the buffer as the point before left it, or (at the first group of a row tile) first stores the zero
  block and reads it back; in both cases its last store is the running block plus mask · head.  Read off the run's pieces.
-/
import proofs.«141332_j72988674228879_1_alg».proof.Proof.Gen.KernelIdeal.Frame
import Idealize.ShloMosaic.Lib.Pipeline.Value

set_option maxRecDepth 16384

noncomputable section

namespace Cert.KernelIdeal.Routed

open Cert.KernelIdeal Cert.KernelIdeal.Gen
open Idealize.ShloMosaic Idealize.ShloMosaic.TcCoe Idealize.ShloMosaic.Tactic
open Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is not the first of its row tile leaves the body's update of what the point before left. -/
theorem out_B (c : Dev nD) (i : grid1.Coords) (a2 : Memref sig .tc .vmem S1024x1024 .bf16) (h2 : a2.IsWhole) (a3 : Memref sig .tc .vmem S1024x1 .i32) (h3 : a3.IsWhole)
    (a4 : Memref sig .tc .vmem S1x1024x2048 .bf16) (h4 : a4.IsWhole) (a5 : Memref sig .tc .vmem S1x1x2048 .f32) (h5 : a5.IsWhole)
    (a6 : Memref sig .tc .vmem S1x2048x256 .bf16) (h6 : a6.IsWhole) (a7 : Memref sig .tc .vmem S1x1x256 .f32) (h7 : a7.IsWhole)
    (a8 : Memref sig .tc .vmem S1024x256 .f32) (h8 : a8.IsWhole) (hc : ¬cond1_0 i)
    (x0 : Vec F S1024x1024 .bf16) (x1 : Vec F S1024x1 .i32) (x2 : Vec F S1x1024x2048 .bf16) (x3 : Vec F S1x1x2048 .f32)
    (x4 : Vec F S1x2048x256 .bf16) (x5 : Vec F S1x1x256 .f32) (xo : Vec F S1024x256 .f32) :
    out1_B_6 c i a2 h2 a3 h3 a4 h4 a5 h5 a6 h6 a7 h7 a8 h8 hc x0 x1 x2 x3 x4 x5 xo = k1_pay2 i x0 x2 x3 x4 x5 x1 xo := by
  unfold out1_B_6
  rw [View.read_writes_eq_canon _ _ _ (cover1_B_6 c i a2 h2 a3 h3 a4 h4 a5 h5 a6 h6 a7 h7 a8 h8 hc x0 x1 x2 x3 x4 x5 xo)]
  unfold kernelRun1_B
  dsimp only
  sl_unfold_words
  rw [View.canon_unit_zero hz2]
  simp only [View.readAt_eq_ld, h2.read_unread, h3.read_unread, h4.read_unread, h5.read_unread, h6.read_unread, h7.read_unread,
    h8.read_unread, View.ld_unit_zero (S := S1024x1024) hz2, View.ld_unit_zero (S := S1024x1) hz2, View.ld_unit_zero (S := S1x1024x2048) hz3,
    View.ld_unit_zero (S := S1x1x2048) hz3, View.ld_unit_zero (S := S1x2048x256) hz3, View.ld_unit_zero (S := S1x1x256) hz3,
    View.ld_unit_zero (S := S1024x256) hz2]

/-- The first point of a row tile leaves the body's update of the zero block. -/
theorem out_A (c : Dev nD) (i : grid1.Coords) (a2 : Memref sig .tc .vmem S1024x1024 .bf16) (h2 : a2.IsWhole) (a3 : Memref sig .tc .vmem S1024x1 .i32) (h3 : a3.IsWhole)
    (a4 : Memref sig .tc .vmem S1x1024x2048 .bf16) (h4 : a4.IsWhole) (a5 : Memref sig .tc .vmem S1x1x2048 .f32) (h5 : a5.IsWhole)
    (a6 : Memref sig .tc .vmem S1x2048x256 .bf16) (h6 : a6.IsWhole) (a7 : Memref sig .tc .vmem S1x1x256 .f32) (h7 : a7.IsWhole)
    (a8 : Memref sig .tc .vmem S1024x256 .f32) (h8 : a8.IsWhole) (hc : cond1_0 i)
    (x0 : Vec F S1024x1024 .bf16) (x1 : Vec F S1024x1 .i32) (x2 : Vec F S1x1024x2048 .bf16) (x3 : Vec F S1x1x2048 .f32)
    (x4 : Vec F S1x2048x256 .bf16) (x5 : Vec F S1x1x256 .f32) :
    out1_A_6 c i a2 h2 a3 h3 a4 h4 a5 h5 a6 h6 a7 h7 a8 h8 hc x0 x1 x2 x3 x4 x5 = k1_pay2 i x0 x2 x3 x4 x5 x1 (k1_pay1 (F := F)) := by
  unfold out1_A_6
  rw [View.read_writes_eq_canon _ _ _ (cover1_A_6 c i a2 h2 a3 h3 a4 h4 a5 h5 a6 h6 a7 h7 a8 h8 hc x0 x1 x2 x3 x4 x5)]
  unfold kernelRun1_A
  dsimp only
  sl_unfold_words
  rw [View.canon_cons_unit_zero (S := S1024x256) hz2]
  simp only [View.readCov_unit_zero (S := S1024x256) _ hz2, View.readAt_eq_ld, h2.read_unread, h3.read_unread, h4.read_unread, h5.read_unread,
    h6.read_unread, h7.read_unread, h8.read_unread, View.ld_unit_zero (S := S1024x1024) hz2, View.ld_unit_zero (S := S1024x1) hz2, View.ld_unit_zero (S := S1x1024x2048) hz3,
    View.ld_unit_zero (S := S1x1x2048) hz3, View.ld_unit_zero (S := S1x2048x256) hz3, View.ld_unit_zero (S := S1x1x256) hz3,
    View.ld_unit_zero (S := S1024x256) hz2]

end Cert.KernelIdeal.Routed

end
-- ==== Proof.Region1.lean ====
/-
  The second launch: the routed heads, a row tile of 1024 rows visited once per group.

  Grid point t = 8·j + g works on row tile j with group g's weights.  The output block of tile j stays in its staging buffer
  across the eight points of the tile and is written back after the last of them.  By induction on the point, what the buffer
  holds after point t is the tile's rows of the running sum over groups 0 … g (zero before group 0): an entry of a head reads one
  row of x, so the update computed from the tile's blocks is the update of the whole-array running sum at those rows.  After group
  7 the running sum is the selection over all eight groups (the law of the specification); the sixteen tiles cover the output array.
-/
import proofs.«141332_j72988674228879_1_alg».proof.Proof.Gen.KernelIdeal.Frame
import proofs.«141332_j72988674228879_1_alg».proof.Proof.KernelPay
import proofs.«141332_j72988674228879_1_alg».proof.Proof.Region1Cases

set_option maxRecDepth 16384

noncomputable section

namespace Cert.KernelIdeal.Routed

open Cert.KernelIdeal Cert.KernelIdeal.Gen Cert.KernelIdeal.Pay
open Idealize.ShloMosaic Idealize.ShloMosaic.TcCoe Idealize.ShloMosaic.ValueIdx RoutedHeads
open Idealize.SL.Sem
open Idealize.ShloMosaic.Pipeline (Dat)

variable (V : (c : Dev nD) → (b : Ref sig .tc) → Buf (Elt Ideal) ((c : Thread nD τ).loc b))

theorem t_lt (t : Fin cfg1.N) : t.val < 128 := lt_of_lt_of_eq t.isLt N_1

/-- The printed index maps and the grid's second coordinate, decided over the grid: x, the group words and the output move with
    the row tile t / 8; the four weight blocks move with the group t % 8. -/
theorem idx : ∀ t : Fin cfg1.N,
    win1_0.index t (0 : Fin 2) = t.val / 8 ∧ win1_0.index t (1 : Fin 2) = 0
    ∧ win1_1.index t (0 : Fin 2) = t.val / 8 ∧ win1_1.index t (1 : Fin 2) = 0
    ∧ win1_2.index t (0 : Fin 3) = t.val % 8 ∧ win1_2.index t (1 : Fin 3) = 0 ∧ win1_2.index t (2 : Fin 3) = 0
    ∧ win1_3.index t (0 : Fin 3) = t.val % 8 ∧ win1_3.index t (1 : Fin 3) = 0 ∧ win1_3.index t (2 : Fin 3) = 0
    ∧ win1_4.index t (0 : Fin 3) = t.val % 8 ∧ win1_4.index t (1 : Fin 3) = 0 ∧ win1_4.index t (2 : Fin 3) = 0
    ∧ win1_5.index t (0 : Fin 3) = t.val % 8 ∧ win1_5.index t (1 : Fin 3) = 0 ∧ win1_5.index t (2 : Fin 3) = 0
    ∧ win1_6.index t (0 : Fin 2) = t.val / 8 ∧ win1_6.index t (1 : Fin 2) = 0
    ∧ (grid1.coords t (1 : Fin 2)).val = t.val % 8 :=
  (by decide +kernel : ∀ t : Fin grid1.N, _)

/-- Row p's group word, as the launch finds the column of group words. -/
def gid (c : Dev nD) : (⟨1, ![16384]⟩ : Shape).Idx → BitVec 32 := fun i => V c main_v5 (ix2 (n0 := 16384) (i 0) (0 : Fin 1))

/-- Group g's head of the whole batch, of the arrays as the launch finds them. -/
def o (c : Dev nD) (g : Fin 8) : (⟨2, ![16384, 256]⟩ : Shape).Idx → EReal :=
  head (V c main_v0) (grp (V c main_v1) g) (fun q => V c main_v6 (ix3 g (0 : Fin 1) q)) (grp (V c main_v2) g)
    (fun q => V c main_v7 (ix3 g (0 : Fin 1) q))

/-- The routed result: the selection over all eight groups. -/
def G (c : Dev nD) : Buf (Elt Ideal) ((c : Thread nD τ).loc main_v9) := pick (gid V c) (o V c) 8 le_rfl

/-! ## The blocks a point reads -/

theorem row_lt (t : Fin cfg1.N) (p : Fin 1024) : t.val / 8 * 1024 + p.val < 16384 := by
  have := t_lt t; have := p.isLt; omega

theorem grp_lt (t : Fin cfg1.N) : t.val % 8 < 8 := Nat.mod_lt _ (by decide)

theorem blk_x (c : Dev nD) (t : Fin cfg1.N) (p : Fin 1024) (k : Fin 1024) :
    iblk1 V c 0 t (ix2 p k) = V c main_v0 (ix2 (⟨t.val / 8 * 1024 + p.val, row_lt t p⟩ : Fin 16384) k) := by
  show V c main_v0 (((cfg1.win 0).blk t).view.emb (ix2 p k)) = _
  refine congrArg (V c main_v0) (funext fun a => Fin.ext ?_)
  obtain ⟨e0, e1, -⟩ := idx t
  match a with
  | ⟨0, _⟩ => show win1_0.index t (0 : Fin 2) * 1024 + 1 * p.val = t.val / 8 * 1024 + p.val; rw [e0]; omega
  | ⟨1, _⟩ => show win1_0.index t (1 : Fin 2) * 1024 + 1 * k.val = k.val; rw [e1]; omega

theorem blk_gid (c : Dev nD) (t : Fin cfg1.N) (p : Fin 1024) :
    iblk1 V c 1 t (ix2 p (0 : Fin 1)) = V c main_v5 (ix2 (⟨t.val / 8 * 1024 + p.val, row_lt t p⟩ : Fin 16384) (0 : Fin 1)) := by
  show V c main_v5 (((cfg1.win 1).blk t).view.emb (ix2 p (0 : Fin 1))) = _
  refine congrArg (V c main_v5) (funext fun a => Fin.ext ?_)
  obtain ⟨-, -, e0, e1, -⟩ := idx t
  match a with
  | ⟨0, _⟩ => show win1_1.index t (0 : Fin 2) * 1024 + 1 * p.val = t.val / 8 * 1024 + p.val; rw [e0]; omega
  | ⟨1, _⟩ => show win1_1.index t (1 : Fin 2) * 1 + 1 * 0 = 0; rw [e1]

theorem blk_W1 (c : Dev nD) (t : Fin cfg1.N) (k : Fin 1024) (q : Fin 2048) :
    iblk1 V c 2 t (ix3 (0 : Fin 1) k q) = V c main_v1 (ix3 (⟨t.val % 8, grp_lt t⟩ : Fin 8) k q) := by
  show V c main_v1 (((cfg1.win 2).blk t).view.emb (ix3 (0 : Fin 1) k q)) = _
  refine congrArg (V c main_v1) (funext fun a => Fin.ext ?_)
  obtain ⟨-, -, -, -, e0, e1, e2, -⟩ := idx t
  match a with
  | ⟨0, _⟩ => show win1_2.index t (0 : Fin 3) * 1 + 1 * 0 = t.val % 8; rw [e0]; omega
  | ⟨1, _⟩ => show win1_2.index t (1 : Fin 3) * 1024 + 1 * k.val = k.val; rw [e1]; omega
  | ⟨2, _⟩ => show win1_2.index t (2 : Fin 3) * 2048 + 1 * q.val = q.val; rw [e2]; omega

theorem blk_b1 (c : Dev nD) (t : Fin cfg1.N) (q : Fin 2048) :
    iblk1 V c 3 t (ix3 (0 : Fin 1) (0 : Fin 1) q) = V c main_v6 (ix3 (⟨t.val % 8, grp_lt t⟩ : Fin 8) (0 : Fin 1) q) := by
  show V c main_v6 (((cfg1.win 3).blk t).view.emb (ix3 (0 : Fin 1) (0 : Fin 1) q)) = _
  refine congrArg (V c main_v6) (funext fun a => Fin.ext ?_)
  obtain ⟨-, -, -, -, -, -, -, e0, e1, e2, -⟩ := idx t
  match a with
  | ⟨0, _⟩ => show win1_3.index t (0 : Fin 3) * 1 + 1 * 0 = t.val % 8; rw [e0]; omega
  | ⟨1, _⟩ => show win1_3.index t (1 : Fin 3) * 1 + 1 * 0 = 0; rw [e1]
  | ⟨2, _⟩ => show win1_3.index t (2 : Fin 3) * 2048 + 1 * q.val = q.val; rw [e2]; omega

theorem blk_W2 (c : Dev nD) (t : Fin cfg1.N) (q : Fin 2048) (r : Fin 256) :
    iblk1 V c 4 t (ix3 (0 : Fin 1) q r) = V c main_v2 (ix3 (⟨t.val % 8, grp_lt t⟩ : Fin 8) q r) := by
  show V c main_v2 (((cfg1.win 4).blk t).view.emb (ix3 (0 : Fin 1) q r)) = _
  refine congrArg (V c main_v2) (funext fun a => Fin.ext ?_)
  obtain ⟨-, -, -, -, -, -, -, -, -, -, e0, e1, e2, -⟩ := idx t
  match a with
  | ⟨0, _⟩ => show win1_4.index t (0 : Fin 3) * 1 + 1 * 0 = t.val % 8; rw [e0]; omega
  | ⟨1, _⟩ => show win1_4.index t (1 : Fin 3) * 2048 + 1 * q.val = q.val; rw [e1]; omega
  | ⟨2, _⟩ => show win1_4.index t (2 : Fin 3) * 256 + 1 * r.val = r.val; rw [e2]; omega

theorem blk_b2 (c : Dev nD) (t : Fin cfg1.N) (r : Fin 256) :
    iblk1 V c 5 t (ix3 (0 : Fin 1) (0 : Fin 1) r) = V c main_v7 (ix3 (⟨t.val % 8, grp_lt t⟩ : Fin 8) (0 : Fin 1) r) := by
  show V c main_v7 (((cfg1.win 5).blk t).view.emb (ix3 (0 : Fin 1) (0 : Fin 1) r)) = _
  refine congrArg (V c main_v7) (funext fun a => Fin.ext ?_)
  obtain ⟨-, -, -, -, -, -, -, -, -, -, -, -, -, e0, e1, e2, -⟩ := idx t
  match a with
  | ⟨0, _⟩ => show win1_5.index t (0 : Fin 3) * 1 + 1 * 0 = t.val % 8; rw [e0]; omega
  | ⟨1, _⟩ => show win1_5.index t (1 : Fin 3) * 1 + 1 * 0 = 0; rw [e1]
  | ⟨2, _⟩ => show win1_5.index t (2 : Fin 3) * 256 + 1 * r.val = r.val; rw [e2]; omega

/-! ## One point's update is the whole-array update at the tile's rows -/

/-- The body at point t, on the tile's blocks and a running block xo: at entry (p, r) it adds to xo the mask of row
    1024·(t/8) + p against group t % 8 times that group's whole-batch head at that row. -/
theorem step (c : Dev nD) (t : Fin cfg1.N) (xo : Vec Ideal S1024x256 .f32) (p : Fin 1024) (r : Fin 256) :
    k1_pay2 (F := Ideal) (grid1.coords t) (iblk1 V c 0 t) (iblk1 V c 2 t) (iblk1 V c 3 t) (iblk1 V c 4 t) (iblk1 V c 5 t) (iblk1 V c 1 t) xo (ix2 p r)
    = xo (ix2 p r) + mask (gid V c (ix1 (⟨t.val / 8 * 1024 + p.val, row_lt t p⟩ : Fin 16384))) (BitVec.ofNat 32 (t.val % 8))
        * o V c ⟨t.val % 8, grp_lt t⟩ (ix2 (⟨t.val / 8 * 1024 + p.val, row_lt t p⟩ : Fin 16384) r) := by
  refine (pay_routed (grid1.coords t) (iblk1 V c 0 t) (iblk1 V c 2 t) (iblk1 V c 3 t) (iblk1 V c 4 t) (iblk1 V c 5 t) (iblk1 V c 1 t) xo p r).trans ?_
  have eg : (grid1.coords t (1 : Fin 2)).val = t.val % 8 := (idx t).2.2.2.2.2.2.2.2.2.2.2.2.2.2.2.2.2.2
  rw [blk_gid V c t p, eg]
  refine congrArg (fun z => xo (ix2 p r) + mask (V c main_v5 (ix2 (⟨t.val / 8 * 1024 + p.val, row_lt t p⟩ : Fin 16384) (0 : Fin 1))) (BitVec.ofNat 32 (t.val % 8)) * z) ?_
  exact head_congr (fun k => blk_x V c t p k)
    (fun k q => (shapeCast_1ab_ab_apply _ _ k q).trans (blk_W1 V c t k q))
    (fun q => blk_b1 V c t q)
    (fun q => (shapeCast_1ab_ab_apply _ _ q r).trans (blk_W2 V c t q r))
    (blk_b2 V c t r)

/-! ## What the staging buffer holds after each point -/

/-- The tile's rows of the running sum after the point's group. -/
def tileAcc (c : Dev nD) (n : ℕ) (hn : n < cfg1.N) : Vec Ideal S1024x256 .f32 := fun y =>
  acc (gid V c) (o V c) (n % 8 + 1) (by have := Nat.mod_lt n (show 0 < 8 by decide); omega)
    (ix2 (⟨n / 8 * 1024 + (y 0).val, by
        have h := lt_of_lt_of_eq hn N_1
        have hy : (y 0).val < 1024 := (y 0).isLt
        omega⟩ : Fin 16384) (y 1))

theorem tileAcc_ix2 (c : Dev nD) (n : ℕ) (hn : n < cfg1.N) (p : Fin 1024) (r : Fin 256) :
    tileAcc V c n hn (ix2 p r)
    = acc (gid V c) (o V c) (n % 8 + 1) (by have := Nat.mod_lt n (show 0 < 8 by decide); omega)
        (ix2 (⟨n / 8 * 1024 + p.val, row_lt ⟨n, hn⟩ p⟩ : Fin 16384) r) := rfl

/-- The zero block is zero. -/
theorem zero_blk (y : S1024x256.Idx) : k1_pay1 (F := Ideal) y = 0 := Ideal.ofBits_zero_f32

/-- The running sum read at two spellings of the same group count and the same row. -/
theorem acc_at' (gd : (⟨1, ![16384]⟩ : Shape).Idx → BitVec 32) (oo : Fin 8 → (⟨2, ![16384, 256]⟩ : Shape).Idx → EReal)
    (n n' : ℕ) (e : n = n') (h : n ≤ 8) (h' : n' ≤ 8) (a a' : ℕ) (ea : a = a') (ha : a < 16384) (ha' : a' < 16384) (r : Fin 256) :
    acc gd oo n h (ix2 (⟨a, ha⟩ : Fin 16384) r) = acc gd oo n' h' (ix2 (⟨a', ha'⟩ : Fin 16384) r) :=
  acc_at gd oo e h h' ea ha ha' r

/-- The first point of a row tile: the update of the zero block is the running sum after group 0. -/
theorem caseA (c : Dev nD) (t : Fin cfg1.N) (h0 : t.val % 8 = 0) : outsAt1 V c t.val t.isLt = tileAcc V c t.val t.isLt := by
  rw [outsAt1_A V c t h0, out_A]
  funext y
  obtain ⟨p, r, rfl⟩ : ∃ (p : Fin 1024) (r : Fin 256), y = ix2 p r := ⟨y 0, y 1, eq_ix2 y⟩
  rw [step V c t _ p r, zero_blk, tileAcc_ix2, acc_succ]
  refine congrArg₂ (· + ·) ?_ rfl
  exact ((acc_at' (gid V c) (o V c) (t.val % 8) 0 h0 _ (Nat.zero_le _) (t.val / 8 * 1024 + p.val) (t.val / 8 * 1024 + p.val) rfl
    (row_lt t p) (row_lt t p) r).trans rfl).symm

/-- A later point of a row tile: the update of the running sum after the group before is the running sum after this group. -/
theorem caseB (c : Dev nD) (t : Fin cfg1.N) (h0 : ¬t.val % 8 = 0)
    (ih : outsAt1 V c (t.val - 1) (Nat.lt_of_le_of_lt (Nat.sub_le _ _) t.isLt) = tileAcc V c (t.val - 1) (Nat.lt_of_le_of_lt (Nat.sub_le _ _) t.isLt)) :
    outsAt1 V c t.val t.isLt = tileAcc V c t.val t.isLt := by
  rw [outsAt1_B V c t h0, out_B, ih]
  funext y
  obtain ⟨p, r, rfl⟩ : ∃ (p : Fin 1024) (r : Fin 256), y = ix2 p r := ⟨y 0, y 1, eq_ix2 y⟩
  rw [step V c t _ p r, tileAcc_ix2, tileAcc_ix2, acc_succ]
  refine congrArg₂ (· + ·) ?_ rfl
  have hn1 : (t.val - 1) % 8 + 1 = t.val % 8 := by omega
  have ha1 : (t.val - 1) / 8 * 1024 + p.val = t.val / 8 * 1024 + p.val := by omega
  exact acc_at' (gid V c) (o V c) ((t.val - 1) % 8 + 1) (t.val % 8) hn1 _ _ ((t.val - 1) / 8 * 1024 + p.val) (t.val / 8 * 1024 + p.val) ha1 _ _ r

/-- BY INDUCTION ON THE POINT: the buffer holds the tile's rows of the running sum. -/
theorem outsAt_eq (c : Dev nD) : ∀ (n : ℕ) (hn : n < cfg1.N), outsAt1 V c n hn = tileAcc V c n hn
  | 0, hn => caseA V c ⟨0, hn⟩ (Nat.zero_mod _)
  | n + 1, hn => by
    by_cases h0 : (n + 1) % 8 = 0
    · exact caseA V c ⟨n + 1, hn⟩ h0
    · exact caseB V c ⟨n + 1, hn⟩ h0 (outsAt_eq c n _)

/-! ## The write-backs and the array -/

theorem emb_out (t : Fin cfg1.N) (p : Fin 1024) (r : Fin 256) :
    ((cfg1.win 6).blk t).view.emb (ix2 p r) = ix2 (⟨t.val / 8 * 1024 + p.val, row_lt t p⟩ : Fin 16384) r := by
  funext a
  apply Fin.ext
  have e0 : win1_6.index t (0 : Fin 2) = t.val / 8 := (idx t).2.2.2.2.2.2.2.2.2.2.2.2.2.2.2.2.1
  have e1 : win1_6.index t (1 : Fin 2) = 0 := (idx t).2.2.2.2.2.2.2.2.2.2.2.2.2.2.2.2.2.1
  match a with
  | ⟨0, _⟩ => show win1_6.index t (0 : Fin 2) * 1024 + 1 * p.val = t.val / 8 * 1024 + p.val; rw [e0]; omega
  | ⟨1, _⟩ => show win1_6.index t (1 : Fin 2) * 256 + 1 * r.val = r.val; rw [e1]; omega

/-- WHAT THE LAST POINT OF A ROW TILE WRITES BACK is the tile's block of the selection over all eight groups. -/
theorem flushed_eq (c : Dev nD) (t : Fin cfg1.N) (hf : (cfg1.win 6).flush t = true) :
    (dat1 V c).flushed 6 t = ((cfg1.win 6).blk t).view.read (Elt Ideal) (G V c) := by
  have h7 : t.val % 8 = 7 := (flush1_6 t).mp hf
  show (cfg1.win 6).cut (grid1.coords t) ((dat1 V c).after 6 t) = _
  rw [after1_6, outsAt_eq]
  funext y
  obtain ⟨p, r, rfl⟩ : ∃ (p : Fin 1024) (r : Fin 256), y = ix2 p r := ⟨y 0, y 1, eq_ix2 y⟩
  show tileAcc V c t.val t.isLt (ix2 p r) = G V c (((cfg1.win 6).blk t).view.emb (ix2 p r))
  rw [emb_out t p r, tileAcc_ix2]
  refine (acc_at' (gid V c) (o V c) (t.val % 8 + 1) 8 (by omega) _ le_rfl (t.val / 8 * 1024 + p.val) (t.val / 8 * 1024 + p.val) rfl
    (row_lt t p) (row_lt t p) r).trans ?_
  exact congrFun (acc_eq_pick (gid V c) (o V c) (by norm_num) 8 le_rfl) _

theorem mem_blk (t : Fin cfg1.N) (i : S16384x256.Idx) :
    i ∈ ((cfg1.win 6).blk t).view.set ↔ ∀ a : Fin 2, win1_6.index t a * S1024x256.size a ≤ (i a).val ∧ (i a).val < win1_6.index t a * S1024x256.size a + S1024x256.size a := by
  show i ∈ ((View.whole main_v9).slice (win1_6.rect t)).set ↔ _
  rw [View.set_slice_whole, Rect.mem_set_unit]
  exact Iff.rfl

/-- Row i of the output array is written back by the last point of tile i / 1024. -/
theorem cover (i : S16384x256.Idx) : ∃ t : Fin cfg1.N, (cfg1.win 6).flush t = true ∧ i ∈ ((cfg1.win 6).blk t).view.set := by
  have hi0 : (i 0).val < 16384 := (i 0).isLt
  have hi1 : (i 1).val < 256 := (i 1).isLt
  have hN : cfg1.N = 128 := N_1
  have hlt : (i 0).val / 1024 * 8 + 7 < cfg1.N := by rw [hN]; omega
  refine ⟨⟨(i 0).val / 1024 * 8 + 7, hlt⟩, (flush1_6 _).mpr (by dsimp only; omega), ?_⟩
  rw [mem_blk]
  have e0 : win1_6.index ⟨(i 0).val / 1024 * 8 + 7, hlt⟩ (0 : Fin 2) = ((i 0).val / 1024 * 8 + 7) / 8 := (idx _).2.2.2.2.2.2.2.2.2.2.2.2.2.2.2.2.1
  have e1 : win1_6.index ⟨(i 0).val / 1024 * 8 + 7, hlt⟩ (1 : Fin 2) = 0 := (idx _).2.2.2.2.2.2.2.2.2.2.2.2.2.2.2.2.2.1
  intro a
  match a with
  | ⟨0, _⟩ =>
    show win1_6.index ⟨(i 0).val / 1024 * 8 + 7, hlt⟩ (0 : Fin 2) * 1024 ≤ (i 0).val ∧ (i 0).val < win1_6.index ⟨(i 0).val / 1024 * 8 + 7, hlt⟩ (0 : Fin 2) * 1024 + 1024
    rw [e0]; omega
  | ⟨1, _⟩ =>
    show win1_6.index ⟨(i 0).val / 1024 * 8 + 7, hlt⟩ (1 : Fin 2) * 256 ≤ (i 1).val ∧ (i 1).val < win1_6.index ⟨(i 0).val / 1024 * 8 + 7, hlt⟩ (1 : Fin 2) * 256 + 256
    rw [e1]; omega

/-- THE OUTPUT ARRAY after the last point is the selection over all eight groups. -/
theorem final (c : Dev nD) : (dat1 V c).arrAt 6 cfg1.N = G V c :=
  (dat1 V c).arrAt_eq_of_cover 6 (G V c) (flushed_eq V c) (cover)

end Cert.KernelIdeal.Routed

end
-- ==== Proof.Entry.lean ====
/-
  What each launch finds, at the ideal instance, and the two launches' results as functions of the arguments.

  The host stretch rounds x and the four weight arrays to bf16 — at the ideal instance the identity — and reshapes the group
  words to a column and the two stacked biases to [8, 1, ·]; it writes no argument.  The first launch writes only its output, so
  the second launch finds x and the reshaped arrays as the host stretch left them.  Substituting these into the two launches'
  whole-array results gives the specification's functions of the ten arguments.
-/
import proofs.«141332_j72988674228879_1_alg».proof.Proof.Gen.KernelIdeal.Frame
import proofs.«141332_j72988674228879_1_alg».proof.Proof.Region0
import proofs.«141332_j72988674228879_1_alg».proof.Proof.Region1
import proofs.«141332_j72988674228879_1_alg».proof.Proof.HostSlices
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.ShloMosaic.ValueIdx RoutedHeads
open Idealize.SL.Sem
open Idealize.ShloMosaic.Pipeline (Dat)

variable (m : (ℓ : Loc nD τ sig) → Buf (Elt Ideal) ℓ) (ρ : Dev nD → PrngReg) (c : Dev nD)

/-! ## After the host stretch -/

theorem V1_v0 : (V1 m ρ c main_v0 : S16384x1024.Idx → EReal) = (m ((c : Thread nD τ).loc main_arg0)) := by
  dsimp only [V1, W1, hostOps0]; after_results; rfl
theorem V1_v1 : (V1 m ρ c main_v1 : S8x1024x2048.Idx → EReal) = (m ((c : Thread nD τ).loc main_arg2)) := by
  dsimp only [V1, W1, hostOps0]; after_results; rfl
theorem V1_v2 : (V1 m ρ c main_v2 : S8x2048x256.Idx → EReal) = (m ((c : Thread nD τ).loc main_arg4)) := by
  dsimp only [V1, W1, hostOps0]; after_results; rfl
theorem V1_v3 : (V1 m ρ c main_v3 : S1024x2048.Idx → EReal) = (m ((c : Thread nD τ).loc main_arg6)) := by
  dsimp only [V1, W1, hostOps0]; after_results; rfl
theorem V1_v4 : (V1 m ρ c main_v4 : S2048x256.Idx → EReal) = (m ((c : Thread nD τ).loc main_arg8)) := by
  dsimp only [V1, W1, hostOps0]; after_results; rfl
theorem V1_v5 : (V1 m ρ c main_v5 : S16384x1.Idx → BitVec 32) = shapeCast S16384x1 (m ((c : Thread nD τ).loc main_arg1)) shapeCasts_S16384_S16384x1 := by
  dsimp only [V1, W1, hostOps0]; after_results; rfl
theorem V1_v6 : (V1 m ρ c main_v6 : S8x1x2048.Idx → EReal) = shapeCast S8x1x2048 (m ((c : Thread nD τ).loc main_arg3)) shapeCasts_S8x2048_S8x1x2048 := by
  dsimp only [V1, W1, hostOps0]; after_results; rfl
theorem V1_v7 : (V1 m ρ c main_v7 : S8x1x256.Idx → EReal) = shapeCast S8x1x256 (m ((c : Thread nD τ).loc main_arg5)) shapeCasts_S8x256_S8x1x256 := by
  dsimp only [V1, W1, hostOps0]; after_results; rfl
theorem V1_arg7 : (V1 m ρ c main_arg7 : S2048.Idx → EReal) = (m ((c : Thread nD τ).loc main_arg7)) := by
  dsimp only [V1, W1, hostOps0]; after_results
theorem V1_arg9 : (V1 m ρ c main_arg9 : S256.Idx → EReal) = (m ((c : Thread nD τ).loc main_arg9)) := by
  dsimp only [V1, W1, hostOps0]; after_results

/-! ## After the first launch -/

/-- x is an input array of the first launch: it ends as it began. -/
theorem V2_v0 : V2 m ρ c main_v0 = V1 m ρ c main_v0 :=
  (W2_arr m ρ c 0).trans ((dat0 (V1 m ρ) c).arrAt_in 0 rfl _)
theorem V2_v1 : V2 m ρ c main_v1 = V1 m ρ c main_v1 := W2_of_ne m ρ c main_v1 (by decide)
theorem V2_v2 : V2 m ρ c main_v2 = V1 m ρ c main_v2 := W2_of_ne m ρ c main_v2 (by decide)
theorem V2_v5 : V2 m ρ c main_v5 = V1 m ρ c main_v5 := W2_of_ne m ρ c main_v5 (by decide)
theorem V2_v6 : V2 m ρ c main_v6 = V1 m ρ c main_v6 := W2_of_ne m ρ c main_v6 (by decide)
theorem V2_v7 : V2 m ρ c main_v7 = V1 m ρ c main_v7 := W2_of_ne m ρ c main_v7 (by decide)

/-! ## The two results as functions of the arguments -/

/-- The plain result: the head of x with the shared weights. -/
theorem plain_eq : Plain.G (V1 m ρ) c
    = head (P := 16384) (K := 1024) (Q := 2048) (R := 256) (m ((c : Thread nD τ).loc main_arg0)) (m ((c : Thread nD τ).loc main_arg6)) (fun q => (m ((c : Thread nD τ).loc main_arg7)) (ix1 q)) (m ((c : Thread nD τ).loc main_arg8)) (fun r => (m ((c : Thread nD τ).loc main_arg9)) (ix1 r)) := by
  unfold Plain.G
  rw [V1_v0, V1_v3, V1_arg7, V1_v4, V1_arg9]

theorem gid_eq : Routed.gid (V2 m ρ) c = (m ((c : Thread nD τ).loc main_arg1)) := by
  funext i
  obtain ⟨p, rfl⟩ : ∃ p : Fin 16384, i = ix1 p := ⟨i 0, eq_ix1 i⟩
  show V2 m ρ c main_v5 (ix2 p (0 : Fin 1)) = _
  rw [V2_v5, V1_v5]
  exact KeepDims.shapeCast_a_a1_apply _ _ p 0

theorem o_eq (g : Fin 8) : Routed.o (V2 m ρ) c g
    = expert (P := 16384) (K := 1024) (Q := 2048) (R := 256) (G := 8) (m ((c : Thread nD τ).loc main_arg0)) (m ((c : Thread nD τ).loc main_arg2)) (m ((c : Thread nD τ).loc main_arg3)) (m ((c : Thread nD τ).loc main_arg4)) (m ((c : Thread nD τ).loc main_arg5)) g := by
  unfold Routed.o expert
  rw [V2_v0, V1_v0, V2_v1, V1_v1, V2_v6, V1_v6, V2_v2, V1_v2, V2_v7, V1_v7]
  have e1 : (fun q : Fin 2048 => shapeCast S8x1x2048 (m ((c : Thread nD τ).loc main_arg3)) shapeCasts_S8x2048_S8x1x2048 (ix3 g (0 : Fin 1) q)) = row (m ((c : Thread nD τ).loc main_arg3)) g :=
    funext fun q => shapeCast_ab_a1b_apply _ _ g 0 q
  have e2 : (fun q : Fin 256 => shapeCast S8x1x256 (m ((c : Thread nD τ).loc main_arg5)) shapeCasts_S8x256_S8x1x256 (ix3 g (0 : Fin 1) q)) = row (m ((c : Thread nD τ).loc main_arg5)) g :=
    funext fun q => shapeCast_ab_a1b_apply _ _ g 0 q
  rw [e1, e2]

/-- The routed result: the selection over all eight groups of the groups' heads. -/
theorem routed_eq : Routed.G (V2 m ρ) c
    = pick (P := 16384) (R := 256) (G := 8) (m ((c : Thread nD τ).loc main_arg1)) (expert (P := 16384) (K := 1024) (Q := 2048) (R := 256) (G := 8) (m ((c : Thread nD τ).loc main_arg0)) (m ((c : Thread nD τ).loc main_arg2)) (m ((c : Thread nD τ).loc main_arg3)) (m ((c : Thread nD τ).loc main_arg4)) (m ((c : Thread nD τ).loc main_arg5))) 8 le_rfl := by
  unfold Routed.G
  rw [gid_eq, funext (o_eq m ρ c)]

end Cert.KernelIdeal.Entry

end
-- ==== Proof.lean ====
/-
  Two heads over a batch of 16384 rows — a plain one with shared weights and a routed one with eight groups of weights chosen per
  row by a group word — computed by two grids of kernel launches, against a host program that computes the plain head once and
  the routed heads by eight full-batch passes, each followed by a selection on the group word.

  Over the extended reals both programs compute the same two arrays.  The plain head is literally the same expression on both
  sides once roundings to bf16 are read as the identity and both kinds of matrix product as the exact sum.  For the routed heads
  the kernel accumulates, per row tile and group by group, mask · head into a block it first sets to zero, while the host keeps
  replacing rows by selection; since 0 · y = 0, 1 · y = y and 0 + y = y + 0 = y hold for every extended real y, and a row's group
  word matches at most one group, the running sum and the running selection agree after every group (Proof/Spec.lean), with no
  use of the precondition.  What each launch leaves in its output array is read off the generated frame run: a block of rows of a
  head depends on the same rows of x only, so the blocks written back are blocks of one whole-array function, and they tile the
  output (Proof/Region0.lean, Proof/Region1.lean).  The host program's run is the generated list of its operations read back
  (Proof/RefRunPatched.lean) and its two result terms are folded into the same functions (Proof/RefValue.lean).

  The three frame claims are the generated frames (the reference's is its run with the results dropped); the idealization rewrote
  no operation, so that claim is trivial.
-/
import proofs.«141332_j72988674228879_1_alg».proof.Defs
import proofs.«141332_j72988674228879_1_alg».proof.Proof.Gen.Kernel
import proofs.«141332_j72988674228879_1_alg».proof.Proof.Gen.Kernel.Skeleton
import proofs.«141332_j72988674228879_1_alg».proof.Proof.Gen.Kernel.Launch
import proofs.«141332_j72988674228879_1_alg».proof.Proof.Gen.Kernel.Points
import proofs.«141332_j72988674228879_1_alg».proof.Proof.Gen.Kernel.Frame
import proofs.«141332_j72988674228879_1_alg».proof.Proof.Gen.KernelIdeal
import proofs.«141332_j72988674228879_1_alg».proof.Proof.Gen.KernelIdeal.Skeleton
import proofs.«141332_j72988674228879_1_alg».proof.Proof.Gen.KernelIdeal.Launch
import proofs.«141332_j72988674228879_1_alg».proof.Proof.Gen.KernelIdeal.Points
import proofs.«141332_j72988674228879_1_alg».proof.Proof.Gen.KernelIdeal.Frame
import proofs.«141332_j72988674228879_1_alg».proof.Proof.Gen.ReferenceIdeal
import proofs.«141332_j72988674228879_1_alg».proof.Proof.Gen.Pre_finite_inputs
import proofs.«141332_j72988674228879_1_alg».proof.Proof.RefRunPatched
import proofs.«141332_j72988674228879_1_alg».proof.Proof.RefValue
import proofs.«141332_j72988674228879_1_alg».proof.Proof.KernelRun
import proofs.«141332_j72988674228879_1_alg».proof.Proof.Entry
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the ideal instance the kernel's two result arrays end at the selection over the eight groups' heads and at the plain head
    (the launches' final arrays, as functions of the arguments), and the host's two results are the same functions of arguments
    that agree. -/
theorem algebraic : Cert.algebraic_KernelIdeal_ReferenceIdeal := by
  intro m ρ m' ρ' _ hagree
  refine ⟨fun c => Cert.KernelIdeal.Routed.G (Cert.KernelIdeal.Gen.V2 m ρ) c,
    fun c => Cert.KernelIdeal.Plain.G (Cert.KernelIdeal.Gen.V1 m ρ) c, ?_, ?_⟩
  · exact (θ_run Cert.KernelIdeal.defs _ _).mono (fun r h c =>
      ⟨(h c).1.trans ((Cert.KernelIdeal.Results.routed_end m ρ c).trans (Cert.KernelIdeal.Routed.final (Cert.KernelIdeal.Gen.V2 m ρ) c)),
       (h c).2.1.trans ((Cert.KernelIdeal.Results.plain_end m ρ c).trans (Cert.KernelIdeal.Plain.final (Cert.KernelIdeal.Gen.V1 m ρ) c)),
       (h c).2.2⟩) (Cert.KernelIdeal.Results.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · show _ = Cert.KernelIdeal.Routed.G (Cert.KernelIdeal.Gen.V2 m ρ) c
      rw [Cert.ReferenceIdeal.RefValue.routed_eq m' c, Cert.KernelIdeal.Entry.routed_eq m ρ c,
        (hagree c).1, (hagree c).2.1, (hagree c).2.2.1, (hagree c).2.2.2.1, (hagree c).2.2.2.2.1, (hagree c).2.2.2.2.2.1]
    · show _ = Cert.KernelIdeal.Plain.G (Cert.KernelIdeal.Gen.V1 m ρ) c
      rw [Cert.ReferenceIdeal.RefValue.plain_eq, Cert.KernelIdeal.Entry.plain_eq m ρ c,
        (hagree c).1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
